-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S5000x128 : Shape := ⟨2, ![5000, 128]⟩
abbrev S5000x1 : Shape := ⟨2, ![5000, 1]⟩
abbrev S600000x128 : Shape := ⟨2, ![600000, 128]⟩
abbrev S1x128 : Shape := ⟨2, ![1, 128]⟩
abbrev S20x2x128 : Shape := ⟨3, ![20, 2, 128]⟩
abbrev S1x2x128 : Shape := ⟨3, ![1, 2, 128]⟩
abbrev S1x1x128 : Shape := ⟨3, ![1, 1, 128]⟩
abbrev S2x128 : Shape := ⟨2, ![2, 128]⟩

abbrev nBuf : Space → Nat
  | .hbm => 60
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .f32⟩
  | .hbm, ⟨11, _⟩ => ⟨S600000, .f32⟩
  | .hbm, ⟨12, _⟩ => ⟨S_, .f32⟩
  | .hbm, ⟨13, _⟩ => ⟨S100000, .f32⟩
  | .hbm, ⟨14, _⟩ => ⟨S600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .f32⟩
  | .hbm, ⟨32, _⟩ => ⟨S100000x128, .f32⟩
  | .hbm, ⟨33, _⟩ => ⟨S600000x1, .i32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S20x2x128, .f32⟩
  | .hbm, ⟨38, _⟩ => ⟨S_, .f32⟩
  | .hbm, ⟨39, _⟩ => ⟨S2x128, .f32⟩
  | .hbm, ⟨40, _⟩ => ⟨S1x128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x2x128, .f32⟩
  | .local _ .vmem, ⟨17, _⟩ => ⟨S1x2x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  inb_S1x2x128_S1x1x128_0_0_0 : ∀ a, (![0, 0, 0] : Fin 3 → Nat) a + S1x1x128.size a ≤ S1x2x128.size a
  h_S1x1x128 : 0 < S1x1x128.numel
  shapeCasts_S1x1x128_S128 : S1x1x128.ShapeCasts S128
  shapeCasts_S128_S1x1x128 : S128.ShapeCasts S1x1x128
  inb_S1x2x128_S1x1x128_0_1_0 : ∀ a, (![0, 1, 0] : Fin 3 → Nat) a + S1x1x128.size a ≤ S1x2x128.size a
  reducesTo_S20x2x128_S2x128_d0 : S20x2x128.ReducesTo [0] S2x128
  h_S_ : 0 < S_.numel
  slices_S2x128_S1x128_0_0 : S2x128.Slices ![0, 0] S1x128
  bcast_S_S128 : S_.BroadcastsInDim S128 (![] : Fin 0 → Fin S128.rank)
  slices_S2x128_S1x128_1_0 : S2x128.Slices ![1, 0] S1x128
  scatter_S100000_S600000x1_S600000_n_0_0_1_wf : ScatterDims.WF S100000 S600000x1 S600000 [] [0] [0] 1
  dot_S5000x128_S128x128_S5000x128_1_0_0_1_n_n_wf : DotDims.WF S5000x128 S128x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2x128.size a ≤ S20x2x128.size a
  hwx1_5 : ∀ i : grid1.Coords, EltTy.bits .f32 = 32 ∨ (Rect.block (s := S20x2x128) S1x2x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v24_1) S1x2x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S100000x128, .f32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S100000, .f32⟩
  | .hbm, ⟨15, _⟩ => ⟨S600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000, .f32⟩
  | .hbm, ⟨39, _⟩ => ⟨S600000, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S600000x1, .f32⟩
  | .hbm, ⟨50, _⟩ => ⟨S600000x128, .f32⟩
  | .hbm, ⟨51, _⟩ => ⟨S600000x128, .f32⟩
  | .hbm, ⟨52, _⟩ => ⟨S_, .f32⟩
  | .hbm, ⟨53, _⟩ => ⟨S100000x128, .f32⟩
  | .hbm, ⟨54, _⟩ => ⟨S600000x1, .i32⟩
  | .hbm, ⟨55, _⟩ => ⟨S100000x128, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000x128, .f32⟩
  | .hbm, ⟨102, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call0_cst : Ref sig .tc := ⟨.hbm, 96, rfl⟩
abbrev main_call0_v0 : Ref sig .tc := ⟨.hbm, 97, rfl⟩
abbrev main_v74 : Ref sig .tc := ⟨.hbm, 98, rfl⟩
abbrev main_v75 : Ref sig .tc := ⟨.hbm, 99, rfl⟩
abbrev main_call1_cst : Ref sig .tc := ⟨.hbm, 100, rfl⟩
abbrev main_call1_v0 : Ref sig .tc := ⟨.hbm, 101, rfl⟩
abbrev main_v76 : Ref sig .tc := ⟨.hbm, 102, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.KRun.lean ====
import proofs.«159187_j41918880809282_2_alg».proof.Proof.Gen.KernelIdeal.Frame

/-!
The run of the three-region program with its result named.

Every weakly fair execution of the program ends with each unscoped buffer of the core holding the contents the
fold through the program assigns to it at the last boundary: the three stretches of host operations applied in
turn, and after each region the arrays of its windows at what its write-backs leave. The frame statement keeps of
this only the argument arrays; here the result buffer is kept as well, at the last boundary's contents, so that
its value can then be read region by region.
-/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs to the end, nothing faulting; the result buffer ends at the last boundary's contents and the
    argument arrays end as launched. -/
theorem run_main : θ_run defs (onTc (τ := τ) (main (F := F))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v42 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KRun

end
-- ==== Proof.KChain.lean ====
import proofs.«159187_j41918880809282_2_alg».proof.Proof.Gen.KernelIdeal.Frame
import proofs.«159187_j41918880809282_2_alg».proof.Proof.Gen.ReferenceIdeal.Read

/-!
The contents of the buffers the three regions read, at each boundary of the program.

Between the regions the program applies host operations to the edge list, to the first region's product and to the
second region's statistics. The operations it applies to the edge list (the source and destination rows, the
destination column, the degree of a node and its inverse square root) are the very operations the reference applies,
so their results are stated through the reference's own stages; what a region leaves in a buffer it does not write
is what it found there.
-/

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## Entering the first region -/

/-- The features are as launched. -/
theorem V1_arg0 (c : Dev nD) : V1 m ρ c main_arg0 = m ((c : Thread nD τ).loc main_arg0) := by
  show StableHlo.after hostOps0 (W0 m ρ c) (Proc.devRef .tc main_arg0) = _
  after_results

/-- The weights are as launched. -/
theorem V1_arg2 (c : Dev nD) : V1 m ρ c main_arg2 = m ((c : Thread nD τ).loc main_arg2) := by
  show StableHlo.after hostOps0 (W0 m ρ c) (Proc.devRef .tc main_arg2) = _
  after_results

/-- The column of inverse square roots of the degrees is the reference's vector of them, laid out as a column. -/
theorem V1_dinv2 (c : Dev nD) :
    V1 m ρ c main_v11 = shapeCast S100000x1 (Cert.ReferenceIdeal.Read.val_main_v11 (F := Ideal) (m ((c : Thread nD τ).loc main_arg1))) shapeCasts_S100000_S100000x1 := by
  show StableHlo.after hostOps0 (W0 m ρ c) (Proc.devRef .tc main_v11) = _
  after_results
  rfl

/-! ## Leaving the first region -/

theorem W2_arg0 (c : Dev nD) : W2 m ρ c (Proc.devRef .tc main_arg0) = m ((c : Thread nD τ).loc main_arg0) :=
  (W2_arr m ρ c 0).trans ((((dat0 (V1 m ρ) c).arrAt_in 0 rfl _).trans (A_eq0 (V1 m ρ) c 0)).trans (V1_arg0 m ρ c))

theorem W2_dinv2 (c : Dev nD) : W2 m ρ c (Proc.devRef .tc main_v11) = V1 m ρ c main_v11 :=
  (W2_arr m ρ c 2).trans (((dat0 (V1 m ρ) c).arrAt_in 2 rfl _).trans (A_eq0 (V1 m ρ) c 2))

/-- The source row of the edge list, as the reference reads it. -/
theorem W2_src (c : Dev nD) :
    W2 m ρ c (Proc.devRef .tc main_v1) = Cert.ReferenceIdeal.Read.val_main_v1 (F := Ideal) (m ((c : Thread nD τ).loc main_arg1)) := by
  refine (W2_of_ne m ρ c main_v1 (by decide)).trans ?_
  show StableHlo.after hostOps0 (W0 m ρ c) (Proc.devRef .tc main_v1) = _
  after_results
  rfl

/-- The destination row of the edge list, as the reference reads it. -/
theorem W2_dst (c : Dev nD) :
    W2 m ρ c (Proc.devRef .tc main_v3) = Cert.ReferenceIdeal.Read.val_main_v3 (F := Ideal) (m ((c : Thread nD τ).loc main_arg1)) := by
  refine (W2_of_ne m ρ c main_v3 (by decide)).trans ?_
  show StableHlo.after hostOps0 (W0 m ρ c) (Proc.devRef .tc main_v3) = _
  after_results
  rfl

theorem W2_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results

theorem W2_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results

theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

/-! ## Entering the second region -/

set_option maxRecDepth 65536 in
/-- The segment sum the second region reads: the rows of the first region's product gathered along the source rows
    (wrapped as the reference wraps them) and added up per destination row into a zero array. -/
theorem V3_scat (c : Dev nD) :
    V3 m ρ c main_v22 = Host.scatterAdd (F := Ideal) (φ := .f32) Cert.ReferenceIdeal.scatter_S100000x128_S600000x1_S600000x128_1_0_0_1
      (Cert.ReferenceIdeal.Read.val_main_v37 (F := Ideal)) (Cert.ReferenceIdeal.Read.val_main_v38 (F := Ideal) (m ((c : Thread nD τ).loc main_arg1)))
      (Host.gather Cert.ReferenceIdeal.gather_S100000x128_S600000x1_S600000x128_1_0_n_n_0_1_1128
        (W2 m ρ c (Proc.devRef .tc main_v12) : FVec Ideal Cert.ReferenceIdeal.S100000x128 .f32)
        (Cert.ReferenceIdeal.Read.val_main_v32 (F := Ideal) (m ((c : Thread nD τ).loc main_arg1)))) := by
  show StableHlo.after hostOps1 (W2 m ρ c) (Proc.devRef .tc main_v22) = _
  after_results
  rw [W2_src, W2_dst]
  unfold Cert.ReferenceIdeal.Read.val_main_v38 Cert.ReferenceIdeal.Read.val_main_v37 Cert.ReferenceIdeal.Read.val_main_v32 Cert.ReferenceIdeal.Read.val_main_v31 Cert.ReferenceIdeal.Read.val_main_v28 Cert.ReferenceIdeal.Read.val_main_v30
    Cert.ReferenceIdeal.Read.val_main_v27 Cert.ReferenceIdeal.Read.val_main_v29 Cert.ReferenceIdeal.Read.val_main_c_5 Cert.ReferenceIdeal.Read.val_main_c_6 Cert.ReferenceIdeal.Read.val_main_cst_7
  rfl

/-- The bias as a row. -/
theorem V3_b2 (c : Dev nD) :
    V3 m ρ c main_v23 = shapeCast S1x128 (m ((c : Thread nD τ).loc main_arg3)) shapeCasts_S128_S1x128 := by
  show StableHlo.after hostOps1 (W2 m ρ c) (Proc.devRef .tc main_v23) = _
  after_results
  rw [W2_arg3]
  rfl

theorem V3_h2 (c : Dev nD) : V3 m ρ c main_v12 = W2 m ρ c (Proc.devRef .tc main_v12) := by
  show StableHlo.after hostOps1 (W2 m ρ c) (Proc.devRef .tc main_v12) = _
  after_results

theorem V3_dinv2 (c : Dev nD) : V3 m ρ c main_v11 = V1 m ρ c main_v11 := by
  refine Eq.trans ?_ (W2_dinv2 m ρ c)
  show StableHlo.after hostOps1 (W2 m ρ c) (Proc.devRef .tc main_v11) = _
  after_results

theorem V3_arg0 (c : Dev nD) : V3 m ρ c main_arg0 = m ((c : Thread nD τ).loc main_arg0) := by
  refine Eq.trans ?_ (W2_arg0 m ρ c)
  show StableHlo.after hostOps1 (W2 m ρ c) (Proc.devRef .tc main_arg0) = _
  after_results

theorem V3_arg4 (c : Dev nD) : V3 m ρ c main_arg4 = m ((c : Thread nD τ).loc main_arg4) := by
  refine Eq.trans ?_ (W2_arg4 m ρ c)
  show StableHlo.after hostOps1 (W2 m ρ c) (Proc.devRef .tc main_arg4) = _
  after_results

theorem V3_arg5 (c : Dev nD) : V3 m ρ c main_arg5 = m ((c : Thread nD τ).loc main_arg5) := by
  refine Eq.trans ?_ (W2_arg5 m ρ c)
  show StableHlo.after hostOps1 (W2 m ρ c) (Proc.devRef .tc main_arg5) = _
  after_results

/-! ## Leaving the second region -/

theorem W4_arg0 (c : Dev nD) : W4 m ρ c (Proc.devRef .tc main_arg0) = m ((c : Thread nD τ).loc main_arg0) :=
  (W4_of_ne m ρ c main_arg0 (by decide)).trans (V3_arg0 m ρ c)

theorem W4_arg4 (c : Dev nD) : W4 m ρ c (Proc.devRef .tc main_arg4) = m ((c : Thread nD τ).loc main_arg4) :=
  (W4_of_ne m ρ c main_arg4 (by decide)).trans (V3_arg4 m ρ c)

theorem W4_arg5 (c : Dev nD) : W4 m ρ c (Proc.devRef .tc main_arg5) = m ((c : Thread nD τ).loc main_arg5) :=
  (W4_of_ne m ρ c main_arg5 (by decide)).trans (V3_arg5 m ρ c)

/-! ## Entering the third region -/

theorem V5_y (c : Dev nD) : V5 m ρ c main_v24_0 = W4 m ρ c (Proc.devRef .tc main_v24_0) := by
  show StableHlo.after hostOps2 (W4 m ρ c) (Proc.devRef .tc main_v24_0) = _
  after_results

theorem V5_arg0 (c : Dev nD) : V5 m ρ c main_arg0 = m ((c : Thread nD τ).loc main_arg0) := by
  refine Eq.trans ?_ (W4_arg0 m ρ c)
  show StableHlo.after hostOps2 (W4 m ρ c) (Proc.devRef .tc main_arg0) = _
  after_results

/-- The per-feature totals of the twenty blocks' partial sums: row 0 the sums, row 1 the sums of squares. -/
def totals (c : Dev nD) : FVec Ideal S2x128 .f32 :=
  Host.reduceAdd (W4 m ρ c (Proc.devRef .tc main_v24_1)) (constant S_ .f32 0x00000000#32) reducesTo_S20x2x128_S2x128_d0 h_S_

/-- The mean the third region reads: the total of the sums over the row count. -/
def meanVec (c : Dev nD) : FVec Ideal S128 .f32 :=
  Host.divf (shapeCast S128 (extractStridedSlice S1x128 ![0, 0] (totals m ρ c) slices_S2x128_S1x128_0_0) shapeCasts_S1x128_S128)
    (broadcastInDim S128 ![] bcast_S_S128 (constant S_ .f32 0x47C35000#32))

/-- The variance the third region reads: the total of the squares over the row count, less the mean's square, kept
    from going below zero. -/
def varVec (c : Dev nD) : FVec Ideal S128 .f32 :=
  maximumf (subf (Host.divf (shapeCast S128 (extractStridedSlice S1x128 ![1, 0] (totals m ρ c) slices_S2x128_S1x128_1_0) shapeCasts_S1x128_S128)
      (broadcastInDim S128 ![] bcast_S_S128 (constant S_ .f32 0x47C35000#32))) (mulf (meanVec m ρ c) (meanVec m ρ c)))
    (broadcastInDim S128 ![] bcast_S_S128 (constant S_ .f32 0x00000000#32))

theorem V5_mean2 (c : Dev nD) : V5 m ρ c main_v38 = shapeCast S1x128 (meanVec m ρ c) shapeCasts_S128_S1x128 := by
  show StableHlo.after hostOps2 (W4 m ρ c) (Proc.devRef .tc main_v38) = _
  after_results
  rfl

theorem V5_var2 (c : Dev nD) : V5 m ρ c main_v39 = shapeCast S1x128 (varVec m ρ c) shapeCasts_S128_S1x128 := by
  show StableHlo.after hostOps2 (W4 m ρ c) (Proc.devRef .tc main_v39) = _
  after_results
  rfl

theorem V5_gamma2 (c : Dev nD) :
    V5 m ρ c main_v40 = shapeCast S1x128 (m ((c : Thread nD τ).loc main_arg4)) shapeCasts_S128_S1x128 := by
  show StableHlo.after hostOps2 (W4 m ρ c) (Proc.devRef .tc main_v40) = _
  after_results
  rw [W4_arg4]
  rfl

theorem V5_beta2 (c : Dev nD) :
    V5 m ρ c main_v41 = shapeCast S1x128 (m ((c : Thread nD τ).loc main_arg5)) shapeCasts_S128_S1x128 := by
  show StableHlo.after hostOps2 (W4 m ρ c) (Proc.devRef .tc main_v41) = _
  after_results
  rw [W4_arg5]
  rfl

end Cert.KernelIdeal.Chain

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.Region0.lean ====
import proofs.«159187_j41918880809282_2_alg».proof.Proof.Gen.KernelIdeal.Frame
import proofs.«159187_j41918880809282_2_alg».proof.Proof.LibDense
import proofs.«159187_j41918880809282_2_alg».proof.Proof.LibRowBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! # Region 0: the scaled matrix product, entry by entry

The region's output array has, at row `p` and column `q`, the matrix product of the features and the weights at
`(p, q)`, `∑ k, x(p, k) · w(k, q)`, times the row's scale `d(p, 0)`, the scale being a one-column array. -/

/-- The entry at row `p`, column `q`, as a function of the three arrays. -/
def scaledProductAt (x : S100000x128.Idx → EReal) (w : S128x128.Idx → EReal) (d : S100000x1.Idx → EReal)
    (p : Fin 100000) (q : Fin 128) : EReal :=
  (∑ k : Fin 128, x (ix2 p k) * w (ix2 k q)) * d (ix2 p (0 : Fin 1))

theorem scaledProductAt_def (x : S100000x128.Idx → EReal) (w : S128x128.Idx → EReal) (d : S100000x1.Idx → EReal)
    (p : Fin 100000) (q : Fin 128) :
    scaledProductAt x w d p q = (∑ k : Fin 128, x (ix2 p k) * w (ix2 k q)) * d (ix2 p (0 : Fin 1)) := rfl

/-- The whole output array, index by index, from the arrays the region finds. -/
def scaledProductArr (c : Dev nD) : S100000x128.Idx → EReal := fun i =>
  scaledProductAt (V c main_arg0) (V c main_arg2) (V c main_v11) (i 0) (i 1)

/-! ## The body's result at an index of the block -/

/-- The body's one stored value at row `r`, column `q` of the block: the product of the two operands, each narrowed
    to the shorter format (the identity on the extended reals), accumulated from zero, read as the matrix product at
    `(r, q)`; times the scale column, broadcast along the row, read at row `r`. -/
theorem pay0_apply (x0 : FVec Ideal S5000x128 .f32) (x1 : FVec Ideal S128x128 .f32) (x2 : FVec Ideal S5000x1 .f32)
    (r : Fin 5000) (q : Fin 128) :
    k0_pay1 x0 x1 x2 (ix2 r q) = (∑ k : Fin 128, x0 (ix2 r k) * x1 (ix2 k q)) * x2 (ix2 r (0 : Fin 1)) := by
  unfold k0_pay1
  simp only [shapeCast_self]
  rw [mulf_apply,
    Cert.Dense.matmul_zero_eq_mm dot_S5000x128_S128x128_S5000x128_1_0_0_1_n_n rfl rfl rfl rfl rfl rfl none
      (truncf .bf16 x0 bitsLt_bf16_f32) (truncf .bf16 x1 bitsLt_bf16_f32),
    Cert.Dense.mm_apply, Cert.RowBlocks.broadcastTo_col_apply]
  rfl

/-! ## The index maps over the grid -/

/-- The printed index maps, decided over the 20 grid points: the features, the scale column and the output sit at
    block `(t, 0)`, the weights at block `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem hz0 : (![0, 0] : Fin 2 → Nat) = fun _ => 0 := funext fun a => by fin_cases a <;> rfl

/-! ## Each input block read where the output's rectangle says -/

/-- Row `r`, column `k` of point `t`'s block of the features is row `t · 5000 + r`, column `k` of the array. -/
theorem blk0_0_apply (c : Dev nD) (t : Fin cfg0.N) (r : Fin 5000) (k : Fin 128) (p : Fin 100000)
    (hp : p.val = t.val * 5000 + r.val) : iblk0 V c 0 t (ix2 r k) = V c main_arg0 (ix2 p k) := by
  obtain ⟨e0, e1, -⟩ := idx_facts0 t
  show V c main_arg0 (((cfg0.win 0).blk t).view.emb (ix2 r k)) = _
  refine congrArg _ (funext fun a => Fin.ext ?_)
  match a with
  | ⟨0, _⟩ => show win0_0.index t (0 : Fin 2) * 5000 + 1 * r.val = p.val; omega
  | ⟨1, _⟩ => show win0_0.index t (1 : Fin 2) * 128 + 1 * k.val = k.val; omega

/-- The one block of the weights is the array. -/
theorem blk0_1_apply (c : Dev nD) (t : Fin cfg0.N) (k : Fin 128) (q : Fin 128) :
    iblk0 V c 1 t (ix2 k q) = V c main_arg2 (ix2 k q) := by
  obtain ⟨-, -, e0, e1, -⟩ := idx_facts0 t
  show V c main_arg2 (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Row `r` of point `t`'s block of the scale column is row `t · 5000 + r` of the column. -/
theorem blk0_2_apply (c : Dev nD) (t : Fin cfg0.N) (r : Fin 5000) (p : Fin 100000)
    (hp : p.val = t.val * 5000 + r.val) : iblk0 V c 2 t (ix2 r (0 : Fin 1)) = V c main_v11 (ix2 p (0 : Fin 1)) := by
  obtain ⟨-, -, -, -, e0, e1, -⟩ := idx_facts0 t
  show V c main_v11 (((cfg0.win 2).blk t).view.emb (ix2 r (0 : Fin 1))) = _
  refine congrArg _ (funext fun a => Fin.ext ?_)
  match a with
  | ⟨0, _⟩ => show win0_2.index t (0 : Fin 2) * 5000 + 1 * r.val = p.val; omega
  | ⟨1, _⟩ => show win0_2.index t (1 : Fin 2) * 1 + 1 * 0 = 0; omega

/-! ## What a point writes back -/

/-- The body's result at row `r`, column `q` of point `t`'s block is the whole-array function at the array index
    `(t · 5000 + r, q)`. -/
theorem flushed0_at (c : Dev nD) (t : Fin cfg0.N) (r : Fin 5000) (q : Fin 128) (i : S100000x128.Idx)
    (hi0 : (i 0).val = t.val * 5000 + r.val) (hi1 : (i 1).val = q.val) :
    k0_pay1 (iblk0 V c 0 t) (iblk0 V c 1 t) (iblk0 V c 2 t) (ix2 r q) = scaledProductArr V c i := by
  obtain ⟨p, q', rfl⟩ : ∃ (p : Fin 100000) (q' : Fin 128), i = ix2 p q' := ⟨i 0, i 1, eq_ix2 i⟩
  have hq : q' = q := Fin.ext hi1
  subst hq
  refine (pay0_apply (iblk0 V c 0 t) (iblk0 V c 1 t) (iblk0 V c 2 t) r q').trans ?_
  show _ = scaledProductAt (V c main_arg0) (V c main_arg2) (V c main_v11) p q'
  rw [scaledProductAt_def, blk0_2_apply V c t r p hi0]
  refine congrArg (fun s => s * _) (Finset.sum_congr rfl fun k _ => ?_)
  rw [blk0_0_apply V c t r k p hi0, blk0_1_apply V c t k q']

/-- Point `t` writes back block `t` of the whole-array function. -/
theorem flushed0_eq (c : Dev nD) (t : Fin cfg0.N) :
    (dat0 (F := Ideal) V c).flushed 3 t = ((cfg0.win 3).blk t).view.read (Elt Ideal) (scaledProductArr V c) := by
  show (cfg0.win 3).cut (grid0.coords t) ((dat0 (F := Ideal) V c).after 3 t) = _
  rw [after0_3]
  unfold out0_3
  rw [View.canon_unit_zero hz0]
  simp only [View.ld_unit_zero (S := S5000x128) hz0, View.ld_unit_zero (S := S128x128) hz0, View.ld_unit_zero (S := S5000x1) hz0]
  obtain ⟨-, -, -, -, -, -, e0, e1⟩ := idx_facts0 t
  funext j
  obtain ⟨r, q, rfl⟩ : ∃ (r : Fin 5000) (q : Fin 128), j = ix2 r q := ⟨j 0, j 1, eq_ix2 j⟩
  show k0_pay1 (iblk0 V c 0 t) (iblk0 V c 1 t) (iblk0 V c 2 t) (ix2 r q)
    = scaledProductArr V c (((cfg0.win 3).blk t).view.emb (ix2 r q))
  refine flushed0_at V c t r q _ ?_ ?_
  · show win0_3.index t (0 : Fin 2) * 5000 + 1 * r.val = t.val * 5000 + r.val; omega
  · show win0_3.index t (1 : Fin 2) * 128 + 1 * q.val = q.val; omega

/-! ## The blocks cover the array -/

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v12).slice (win0_3.rect t)).set ↔ _
  rw [View.set_slice_whole, Rect.mem_set_unit]
  exact Iff.rfl

/-- Row `p` lies in the block of point `p / 5000`: the twenty blocks of 5000 rows tile the 100000 rows. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have ht : (i 0).val / 5000 < cfg0.N := by
    show (i 0).val / 5000 < grid0.N
    rw [N_0]; omega
  obtain ⟨-, -, -, -, -, -, e0, e1⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e1]
    omega

/-! ## The array after the region -/

/-- The output array after the region is the whole-array function of the arrays the region finds. -/
theorem final0 (c : Dev nD) : (dat0 (F := Ideal) V c).arrAt 3 cfg0.N = scaledProductArr V c :=
  (dat0 (F := Ideal) V c).arrAt_eq_of_cover 3 (scaledProductArr V c) (fun t _ => flushed0_eq V c t) cover0

/-- Entry `(p, q)` of the output array after the region. -/
theorem final0_apply (c : Dev nD) (p : Fin 100000) (q : Fin 128) :
    (dat0 (F := Ideal) V c).arrAt 3 cfg0.N (ix2 p q)
      = scaledProductAt (V c main_arg0) (V c main_arg2) (V c main_v11) p q := by
  rw [final0]
  rfl

/-- The same entry, with the arrays the region finds given as functions into the extended reals. -/
theorem final0_apply_of (c : Dev nD) (p : Fin 100000) (q : Fin 128) (x : S100000x128.Idx → EReal)
    (w : S128x128.Idx → EReal) (d : S100000x1.Idx → EReal) (hx : V c main_arg0 = x) (hw : V c main_arg2 = w)
    (hd : V c main_v11 = d) :
    (dat0 (F := Ideal) V c).arrAt 3 cfg0.N (ix2 p q)
      = (∑ k : Fin 128, x (ix2 p k) * w (ix2 k q)) * d (ix2 p (0 : Fin 1)) := by
  subst hx hw hd
  exact final0_apply V c p q

end Cert.KernelIdeal.RegionValue

end
-- ==== Proof.LibCarriedRow.lean ====
/-
  A row of running totals carried in a buffer, read back: general lemmas.

  Stores that each cover their whole buffer: a load of the whole buffer after such stores reads the value of the
  LAST one, whatever came before (`readCov_cons_unit_zero`; the library has the one-store case).

  A `[1, 1, c]` row kept in a buffer and used as a vector `[c]` or as a `[1, c]` row: the three shape casts read at
  an index (`cast_11c_c`, `cast_c_11c`, `cast_11c_1c`).

  On the extended reals, the sum of an `[n, c]` array along its FIRST axis reads, at column `d`, the sum over the
  `n` rows of the column's entries (`colSum_apply`): the column totals of a block of rows.

  All at any extents.
-/
import Idealize.ShloMosaic.Lib.Pipeline.Value
import Idealize.ShloMosaic.Lib.ValueIdx
import Idealize.ShloMosaic.PureOps.Ideal.Laws

noncomputable section

open scoped BigOperators

namespace Cert.CarriedRow

open Idealize.ShloMosaic Idealize.ShloMosaic.ValueIdx

section stores
variable {Val : EltTy → Type} {S : Shape} {e : EltTy}

/-- A load of the whole buffer, after stores of which the LAST covers the whole buffer, reads that store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]
end stores

section layout
variable {α : Type}

/-- A `[1, 1, c]` row read as a vector. -/
theorem cast_11c_c {c : ℕ} (x : (⟨3, ![1, 1, c]⟩ : Shape).Idx → α) (h : (⟨3, ![1, 1, c]⟩ : Shape).ShapeCasts ⟨1, ![c]⟩)
    (d : Fin c) : shapeCast ⟨1, ![c]⟩ x h (ix1 d) = x (ix3 (0 : Fin 1) (0 : Fin 1) d) :=
  shapeCast_apply x h _ _ (by
    rw [Shape.rowMajor_val_three, Shape.rowMajor_val_one]
    show (0 * 1 + 0) * c + d.val = d.val
    simp)

/-- A vector read as a `[1, 1, c]` row. -/
theorem cast_c_11c {c : ℕ} (x : (⟨1, ![c]⟩ : Shape).Idx → α) (h : (⟨1, ![c]⟩ : Shape).ShapeCasts ⟨3, ![1, 1, c]⟩)
    (u v : Fin 1) (d : Fin c) : shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    simp [hu, hv])

/-- A `[1, 1, c]` row read as a `[1, c]` row. -/
theorem cast_11c_1c {c : ℕ} (x : (⟨3, ![1, 1, c]⟩ : Shape).Idx → α) (h : (⟨3, ![1, 1, c]⟩ : Shape).ShapeCasts ⟨2, ![1, c]⟩)
    (u : Fin 1) (d : Fin c) : shapeCast ⟨2, ![1, c]⟩ x h (ix2 u d) = x (ix3 (0 : Fin 1) (0 : Fin 1) d) :=
  shapeCast_apply x h _ _ (by
    have hu : u.val = 0 := by omega
    rw [Shape.rowMajor_val_three, Shape.rowMajor_val_two]
    show (0 * 1 + 0) * c + d.val = u.val * c + d.val
    simp [hu])
end layout

/-- The sum of an `[n, c]` array along its first axis reads, at column `d`, the sum of the column's entries. -/
theorem colSum_apply {n c : ℕ} (src : FVec Ideal ⟨2, ![n, c]⟩ .f32)
    (h : (⟨2, ![n, c]⟩ : Shape).Reduces [0] ⟨1, ![c]⟩) (hφ : FKind.Formats .f32)
    (hacc : (0x00000000#32 : BitVec 32) = 0x00000000#32) (d : Fin c) :
    multiReduction .add [0] ⟨1, ![c]⟩ src 0x00000000#32 h hφ hacc (ix1 d) = ∑ p : Fin n, src (ix2 p d) := by
  refine (Ideal.multiReduction_add_single src 0x00000000#32 h hφ hacc (ix1 d)).trans ?_
  refine Finset.sum_congr rfl fun k _ => congrArg src (funext fun ax => Fin.ext ?_)
  match ax with
  | ⟨0, _⟩ => rfl
  | ⟨1, _⟩ => rfl

end Cert.CarriedRow

end
-- ==== Proof.Region1.lean ====
/-
  Region 1 (the self-loop and statistics kernel), read as values: the two arrays its output windows end holding, as
  functions of the arrays the region finds, index by index, on the extended reals.

  The grid has twenty points; point `t` works on rows `5000 t … 5000 t + 4999`.  Its body forms, for the block's rows,
  `y = d · (s + h) + b` — `d` the per-row scale (a column), `s` the segment sum and `h` the dense product (row-blocked
  arrays), `b` the bias (one row shared by all rows) — and stores it as block `t` of `y`'s array; and it stores, into
  block `t` of a `[20, 2, 128]` array, the column sums of the block's rows of `y` (row 0) and of their squares (row 1).

  So after the region, `y`'s array holds `y` at every index (its twenty blocks tile it: the block of row `p` is
  `p / 5000`), and the statistics array holds, at `(t, 0, q)`, the sum over the 5000 rows of block `t` of `y` at column
  `q`, and at `(t, 1, q)` the sum of the squares.
-/
import proofs.«159187_j41918880809282_2_alg».proof.Proof.Gen.KernelIdeal.Frame
import proofs.«159187_j41918880809282_2_alg».proof.Proof.LibRowBlocks
import proofs.«159187_j41918880809282_2_alg».proof.Proof.LibCarriedRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)

/-- Row `r` of row block `t` is row `5000 t + r` of the whole array. -/
def rowOf (t : Fin 20) (r : Fin 5000) : Fin 100000 :=
  ⟨5000 * t.val + r.val, by have := t.isLt; have := r.isLt; omega⟩

theorem rowOf_val (t : Fin 20) (r : Fin 5000) : (rowOf t r).val = 5000 * t.val + r.val := rfl

/-- The affine self-loop combination of a scale column `d`, two row-blocked arrays `s`, `h` and a bias row `b`, at row `p`
    and column `q`: `d p · (s p q + h p q) + b q`. -/
def selfLoopEntry (d : S100000x1.Idx → EReal) (s h : S100000x128.Idx → EReal) (b : S1x128.Idx → EReal)
    (p : Fin 100000) (q : Fin 128) : EReal :=
  d (ix2 p (0 : Fin 1)) * (s (ix2 p q) + h (ix2 p q)) + b (ix2 (0 : Fin 1) q)

variable (V : (c : Dev nD) → (b : Ref sig .tc) → Buf (Elt Ideal) ((c : Thread nD τ).loc b))

/-- The entry of `y` at row `p` and column `q`, from the arrays the region finds: the row's scale times the sum of the
    segment sum and the dense product there, plus the bias at the column. -/
def yEntry (c : Dev nD) (p : Fin 100000) (q : Fin 128) : EReal :=
  selfLoopEntry (V c main_v11) (V c main_v22) (V c main_v12) (V c main_v23) p q

namespace Region1

theorem hz2 : (![0, 0] : Fin 2 → Nat) = fun _ => 0 := funext fun a => by fin_cases a <;> rfl

/-- The entry of the affine self-loop combination at a row and a column of a block: the row's scale times the sum of
    the two row entries, plus the bias at the column. -/
theorem pay1_apply (x2 : Vec Ideal S5000x1 .f32) (x0 x1 : Vec Ideal S5000x128 .f32) (x3 : Vec Ideal S1x128 .f32)
    (r : Fin 5000) (q : Fin 128) :
    k1_pay1 x2 x0 x1 x3 (ix2 r q)
      = x2 (ix2 r (0 : Fin 1)) * (x0 (ix2 r q) + x1 (ix2 r q)) + x3 (ix2 (0 : Fin 1) q) := by
  unfold k1_pay1
  simp only [shapeCast_self]
  show (broadcastTo S5000x128 x2 broadcasts_S5000x1_S5000x128 (ix2 r q)) * (x0 (ix2 r q) + x1 (ix2 r q))
      + broadcastTo S5000x128 x3 broadcasts_S1x128_S5000x128 (ix2 r q) = _
  rw [Cert.RowBlocks.broadcastTo_col_apply x2 broadcasts_S5000x1_S5000x128 r q,
    broadcastTo_1b_ab_apply x3 broadcasts_S1x128_S5000x128 r q]

/-- The block indices of the six windows, decided over the twenty grid points: the row-blocked windows sit at block
    row `t`, the bias row at block zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 3) = t.val ∧ win1_5.index t (1 : Fin 3) = 0 ∧ win1_5.index t (2 : Fin 3) = 0 :=
  (by decide +kernel : ∀ t : Fin grid1.N, _)

/-- `y` as one array. -/
def yArr (c : Dev nD) : S100000x128.Idx → EReal := fun i => yEntry V c (i 0) (i 1)

theorem yArr_apply (c : Dev nD) (p : Fin 100000) (q : Fin 128) : yArr V c (ix2 p q) = yEntry V c p q := rfl

/-- Block `t` of the segment-sum window holds rows `5000 t …` of its array. -/
theorem blk0_apply (c : Dev nD) (t : Fin 20) (r : Fin 5000) (q : Fin 128) :
    (iblk1 V c 0 t : Vec Ideal S5000x128 .f32) (ix2 r q) = V c main_v22 (ix2 (rowOf t r) q) := by
  obtain ⟨e0, e1, -⟩ := idx_facts1 t
  show V c main_v22 (((cfg1.win 0).blk t).view.emb (ix2 r q)) = _
  refine congrArg (V c main_v22) (funext fun a => Fin.ext ?_)
  match a with
  | ⟨0, _⟩ => show win1_0.index t (0 : Fin 2) * 5000 + 1 * r.val = 5000 * t.val + r.val; omega
  | ⟨1, _⟩ => show win1_0.index t (1 : Fin 2) * 128 + 1 * q.val = q.val; omega

/-- Block `t` of the dense-product window holds rows `5000 t …` of its array. -/
theorem blk1_apply (c : Dev nD) (t : Fin 20) (r : Fin 5000) (q : Fin 128) :
    (iblk1 V c 1 t : Vec Ideal S5000x128 .f32) (ix2 r q) = V c main_v12 (ix2 (rowOf t r) q) := by
  obtain ⟨-, -, e0, e1, -⟩ := idx_facts1 t
  show V c main_v12 (((cfg1.win 1).blk t).view.emb (ix2 r q)) = _
  refine congrArg (V c main_v12) (funext fun a => Fin.ext ?_)
  match a with
  | ⟨0, _⟩ => show win1_1.index t (0 : Fin 2) * 5000 + 1 * r.val = 5000 * t.val + r.val; omega
  | ⟨1, _⟩ => show win1_1.index t (1 : Fin 2) * 128 + 1 * q.val = q.val; omega

/-- Block `t` of the scale column holds rows `5000 t …` of the column. -/
theorem blk2_apply (c : Dev nD) (t : Fin 20) (r : Fin 5000) (u : Fin 1) :
    (iblk1 V c 2 t : Vec Ideal S5000x1 .f32) (ix2 r u) = V c main_v11 (ix2 (rowOf t r) u) := by
  obtain ⟨-, -, -, -, e0, e1, -⟩ := idx_facts1 t
  show V c main_v11 (((cfg1.win 2).blk t).view.emb (ix2 r u)) = _
  refine congrArg (V c main_v11) (funext fun a => Fin.ext ?_)
  match a with
  | ⟨0, _⟩ => show win1_2.index t (0 : Fin 2) * 5000 + 1 * r.val = 5000 * t.val + r.val; omega
  | ⟨1, _⟩ => show win1_2.index t (1 : Fin 2) * 1 + 1 * u.val = u.val; omega

/-- The one block of the bias row is the row. -/
theorem blk3_apply (c : Dev nD) (t : Fin 20) (u : Fin 1) (q : Fin 128) :
    (iblk1 V c 3 t : Vec Ideal S1x128 .f32) (ix2 u q) = V c main_v23 (ix2 u q) := by
  obtain ⟨-, -, -, -, -, -, e0, e1, -⟩ := idx_facts1 t
  show V c main_v23 (((cfg1.win 3).blk t).view.emb (ix2 u q)) = _
  refine congrArg (V c main_v23) (funext fun a => Fin.ext ?_)
  match a with
  | ⟨0, _⟩ => show win1_3.index t (0 : Fin 2) * 1 + 1 * u.val = u.val; omega
  | ⟨1, _⟩ => show win1_3.index t (1 : Fin 2) * 128 + 1 * q.val = q.val; omega

/-- The body's `y` at a row and a column of block `t` is `y` of the whole arrays at the block's row. -/
theorem body_y (c : Dev nD) (t : Fin 20) (r : Fin 5000) (q : Fin 128) :
    k1_pay1 (iblk1 V c 2 t) (iblk1 V c 0 t) (iblk1 V c 1 t) (iblk1 V c 3 t) (ix2 r q) = yEntry V c (rowOf t r) q := by
  refine (pay1_apply (iblk1 V c 2 t) (iblk1 V c 0 t) (iblk1 V c 1 t) (iblk1 V c 3 t) r q).trans ?_
  rw [blk0_apply V c t r q, blk1_apply V c t r q, blk2_apply V c t r (0 : Fin 1), blk3_apply V c t (0 : Fin 1) q]
  rfl

/-- What point `t` writes back to `y`'s array is block `t` of `y`. -/
theorem flushed4_eq (c : Dev nD) (t : Fin cfg1.N) :
    (dat1 (F := Ideal) V c).flushed 4 t = ((cfg1.win 4).blk t).view.read (Elt Ideal) (yArr V c) := by
  show (cfg1.win 4).cut (grid1.coords t) ((dat1 (F := Ideal) V c).after 4 t) = _
  rw [after1_4]
  unfold out1_4
  rw [View.canon_unit_zero hz2]
  simp only [View.ld_unit_zero (S := S5000x128) hz2, View.ld_unit_zero (S := S5000x1) hz2, View.ld_unit_zero (S := S1x128) hz2]
  obtain ⟨-, -, -, -, -, -, -, -, e0, e1, -⟩ := idx_facts1 t
  funext j
  obtain ⟨r, q, rfl⟩ : ∃ (r : Fin 5000) (q : Fin 128), j = ix2 r q := ⟨j 0, j 1, eq_ix2 j⟩
  refine (body_y V c t r q).trans ?_
  show yEntry V c (rowOf t r) q = yArr V c (((cfg1.win 4).blk t).view.emb (ix2 r q))
  refine (yArr_apply V c (rowOf t r) q).symm.trans (congrArg (yArr V c) (funext fun a => Fin.ext ?_))
  match a with
  | ⟨0, _⟩ => show 5000 * t.val + r.val = win1_4.index t (0 : Fin 2) * 5000 + 1 * r.val; omega
  | ⟨1, _⟩ => show q.val = win1_4.index t (1 : Fin 2) * 128 + 1 * q.val; omega

/-- An index of `y`'s array is in point `t`'s block iff each coordinate is in the block's range on its axis. -/
theorem mem_blk4 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v24_0).slice (win1_4.rect t)).set ↔ _
  rw [View.set_slice_whole, Rect.mem_set_unit]
  exact Iff.rfl

/-- Every row of `y`'s array is in the block of the point `row / 5000`. -/
theorem cover4 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 5000, by show (i 0).val / 5000 < 20; omega⟩
  obtain ⟨-, -, -, -, -, -, -, -, e0, e1, -⟩ := idx_facts1 t
  have ht : t.val = (i 0).val / 5000 := rfl
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The first statistic of a block: at a column, the sum over the block's rows of `y` there (the lane reduction, then
    the casts to a row, back to a vector and to a `[1, 1, 128]` row, each the identity on the entries). -/
theorem pay2_apply (x2 : Vec Ideal S5000x1 .f32) (x0 x1 : Vec Ideal S5000x128 .f32) (x3 : Vec Ideal S1x128 .f32)
    (u v : Fin 1) (q : Fin 128) :
    k1_pay2 x2 x0 x1 x3 (ix3 u v q) = ∑ r : Fin 5000, k1_pay1 x2 x0 x1 x3 (ix2 r q) := by
  unfold k1_pay2
  refine (Cert.CarriedRow.cast_c_11c _ shapeCasts_S128_S1x1x128 u v q).trans ?_
  refine (congrFun (shapeCast_shapeCast _ shapeCasts_S128_S1x128 shapeCasts_S1x128_S128) (ix1 q)).trans ?_
  exact Cert.CarriedRow.colSum_apply (k1_pay1 x2 x0 x1 x3) reduces_S5000x128_S128 (.inl rfl) rfl q

/-- The second statistic of a block: at a column, the sum over the block's rows of the square of `y` there. -/
theorem pay3_apply (x2 : Vec Ideal S5000x1 .f32) (x0 x1 : Vec Ideal S5000x128 .f32) (x3 : Vec Ideal S1x128 .f32)
    (u v : Fin 1) (q : Fin 128) :
    k1_pay3 x2 x0 x1 x3 (ix3 u v q)
      = ∑ r : Fin 5000, k1_pay1 x2 x0 x1 x3 (ix2 r q) * k1_pay1 x2 x0 x1 x3 (ix2 r q) := by
  unfold k1_pay3
  refine (Cert.CarriedRow.cast_c_11c _ shapeCasts_S128_S1x1x128 u v q).trans ?_
  refine (congrFun (shapeCast_shapeCast _ shapeCasts_S128_S1x128 shapeCasts_S1x128_S128) (ix1 q)).trans ?_
  exact Cert.CarriedRow.colSum_apply (mulf (k1_pay1 x2 x0 x1 x3) (k1_pay1 x2 x0 x1 x3)) reduces_S5000x128_S128 (.inl rfl) rfl q

/-- A `[1, 2, 128]` buffer whose row 0 is the row `s0` and whose row 1 is the row `s1`, as one function of its index. -/
def twoRows (s0 s1 : S1x1x128.Idx → EReal) : S1x2x128.Idx → EReal := fun y =>
  if (y 1).val = 0 then s0 (ix3 (n0 := 1) (n1 := 1) (n2 := 128) 0 0 (y 2)) else s1 (ix3 (n0 := 1) (n1 := 1) (n2 := 128) 0 0 (y 2))

/-- The statistics buffer after the body's two row stores: row 0 the first statistic, row 1 the second. -/
theorem out5_eq (x0 x1 : Vec Ideal S5000x128 .f32) (x2 : Vec Ideal S5000x1 .f32) (x3 : Vec Ideal S1x128 .f32)
    (y : S1x2x128.Idx) :
    out1_5 x0 x1 x2 x3 y = twoRows (k1_pay2 x2 x0 x1 x3) (k1_pay3 x2 x0 x1 x3) y := by
  unfold out1_5
  simp only [View.ld_unit_zero (S := S5000x128) hz2, View.ld_unit_zero (S := S5000x1) hz2, View.ld_unit_zero (S := S1x128) hz2]
  refine View.canon_apply_of_pieces (Val := Elt Ideal) (S := S1x2x128) (e := .f32) (twoRows (k1_pay2 x2 x0 x1 x3) (k1_pay3 x2 x0 x1 x3)) _ ?_ y (cover1_5 _ _ y)
  intro p hp x
  rcases List.mem_cons.mp hp with rfl | hp
  · -- the store of row 1
    obtain ⟨a, b, d, rfl⟩ : ∃ (a b : Fin 1) (d : Fin 128), x = ix3 a b d := ⟨x 0, x 1, x 2, eq_ix3 x⟩
    have h1 : ((r1_4.emb (ix3 a b d)) (1 : Fin 3)).val = 1 := by show 1 + 1 * b.val = 1; omega
    show k1_pay3 x2 x0 x1 x3 (ix3 a b d) = if ((r1_4.emb (ix3 a b d)) (1 : Fin 3)).val = 0 then _ else _
    rw [if_neg (by omega)]
    refine congrArg (k1_pay3 x2 x0 x1 x3) (funext fun ax => Fin.ext ?_)
    match ax with
    | ⟨0, _⟩ => show a.val = 0; omega
    | ⟨1, _⟩ => show b.val = 0; omega
    | ⟨2, _⟩ => show d.val = 0 + 1 * d.val; omega
  · -- the store of row 0
    obtain rfl := List.mem_singleton.mp hp
    obtain ⟨a, b, d, rfl⟩ : ∃ (a b : Fin 1) (d : Fin 128), x = ix3 a b d := ⟨x 0, x 1, x 2, eq_ix3 x⟩
    have h1 : ((r1_3.emb (ix3 a b d)) (1 : Fin 3)).val = 0 := by show 0 + 1 * b.val = 0; omega
    show k1_pay2 x2 x0 x1 x3 (ix3 a b d) = if ((r1_3.emb (ix3 a b d)) (1 : Fin 3)).val = 0 then _ else _
    rw [if_pos h1]
    refine congrArg (k1_pay2 x2 x0 x1 x3) (funext fun ax => Fin.ext ?_)
    match ax with
    | ⟨0, _⟩ => show a.val = 0; omega
    | ⟨1, _⟩ => show b.val = 0; omega
    | ⟨2, _⟩ => show d.val = 0 + 1 * d.val; omega

/-- The statistics of `y` as one array: at block `t`, row 0 the column sums of the block's rows of `y`, row 1 the column
    sums of their squares. -/
def statArr (c : Dev nD) : S20x2x128.Idx → EReal := fun i =>
  if (i 1).val = 0 then ∑ r : Fin 5000, yEntry V c (rowOf (i 0) r) (i 2)
  else ∑ r : Fin 5000, yEntry V c (rowOf (i 0) r) (i 2) * yEntry V c (rowOf (i 0) r) (i 2)

theorem statArr_apply (c : Dev nD) (t : Fin 20) (v : Fin 2) (q : Fin 128) :
    statArr V c (ix3 t v q) = if v.val = 0 then ∑ r : Fin 5000, yEntry V c (rowOf t r) q
      else ∑ r : Fin 5000, yEntry V c (rowOf t r) q * yEntry V c (rowOf t r) q := rfl

/-- What point `t` writes back to the statistics array is block `t` of the statistics. -/
theorem flushed5_eq (c : Dev nD) (t : Fin cfg1.N) :
    (dat1 (F := Ideal) V c).flushed 5 t = ((cfg1.win 5).blk t).view.read (Elt Ideal) (statArr V c) := by
  show (cfg1.win 5).cut (grid1.coords t) ((dat1 (F := Ideal) V c).after 5 t) = _
  rw [after1_5]
  obtain ⟨-, -, -, -, -, -, -, -, -, -, e0, e1, e2⟩ := idx_facts1 t
  funext j
  obtain ⟨u, v, q, rfl⟩ : ∃ (u : Fin 1) (v : Fin 2) (q : Fin 128), j = ix3 u v q := ⟨j 0, j 1, j 2, eq_ix3 j⟩
  refine (out5_eq (iblk1 V c 0 t) (iblk1 V c 1 t) (iblk1 V c 2 t) (iblk1 V c 3 t) (ix3 u v q)).trans ?_
  have hemb : ((cfg1.win 5).blk t).view.emb (ix3 u v q) = ix3 (n0 := 20) t v q := by
    funext a; apply Fin.ext
    match a with
    | ⟨0, _⟩ => show win1_5.index t (0 : Fin 3) * 1 + 1 * u.val = t.val; omega
    | ⟨1, _⟩ => show win1_5.index t (1 : Fin 3) * 2 + 1 * v.val = v.val; omega
    | ⟨2, _⟩ => show win1_5.index t (2 : Fin 3) * 128 + 1 * q.val = q.val; omega
  show _ = statArr V c (((cfg1.win 5).blk t).view.emb (ix3 u v q))
  rw [hemb, statArr_apply V c t v q]
  show (if v.val = 0 then _ else _) = _
  by_cases hv : v.val = 0
  · rw [if_pos hv, if_pos hv]
    exact (pay2_apply (iblk1 V c 2 t) (iblk1 V c 0 t) (iblk1 V c 1 t) (iblk1 V c 3 t) 0 0 q).trans
      (Finset.sum_congr rfl fun r _ => body_y V c t r q)
  · rw [if_neg hv, if_neg hv]
    exact (pay3_apply (iblk1 V c 2 t) (iblk1 V c 0 t) (iblk1 V c 1 t) (iblk1 V c 3 t) 0 0 q).trans
      (Finset.sum_congr rfl fun r _ => by rw [body_y V c t r q])

/-- An index of the statistics array is in point `t`'s block iff each coordinate is in the block's range on its axis. -/
theorem mem_blk5 (t : Fin cfg1.N) (i : S20x2x128.Idx) :
    i ∈ ((cfg1.win 5).blk t).view.set ↔ ∀ a : Fin 3, win1_5.index t a * S1x2x128.size a ≤ (i a).val ∧ (i a).val < win1_5.index t a * S1x2x128.size a + S1x2x128.size a := by
  show i ∈ ((View.whole main_v24_1).slice (win1_5.rect t)).set ↔ _
  rw [View.set_slice_whole, Rect.mem_set_unit]
  exact Iff.rfl

/-- Block `t` of the statistics array is point `t`'s. -/
theorem cover5 (i : S20x2x128.Idx) :
    ∃ t : Fin cfg1.N, (cfg1.win 5).flush t = true ∧ i ∈ ((cfg1.win 5).blk t).view.set := by
  have hi0 : (i 0).val < 20 := (i 0).isLt
  have hi1 : (i 1).val < 2 := (i 1).isLt
  have hi2 : (i 2).val < 128 := (i 2).isLt
  let t : Fin cfg1.N := ⟨(i 0).val, hi0⟩
  obtain ⟨-, -, -, -, -, -, -, -, -, -, e0, e1, e2⟩ := idx_facts1 t
  have ht : t.val = (i 0).val := rfl
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 2 ≤ (i 1).val ∧ (i 1).val < win1_5.index t (1 : Fin 3) * 2 + 2; omega
  | ⟨2, _⟩ => show win1_5.index t (2 : Fin 3) * 128 ≤ (i 2).val ∧ (i 2).val < win1_5.index t (2 : Fin 3) * 128 + 128; omega

end Region1

open Region1

/-- The array of `y` after the region: `y` of the arrays the region found, entry by entry. -/
theorem final1_y (c : Dev nD) : (dat1 (F := Ideal) V c).arrAt 4 cfg1.N = yArr V c :=
  (dat1 (F := Ideal) V c).arrAt_eq_of_cover 4 (yArr V c) (fun t _ => Region1.flushed4_eq V c t) Region1.cover4

theorem final1_y_apply (c : Dev nD) (p : Fin 100000) (q : Fin 128) :
    (dat1 (F := Ideal) V c).arrAt 4 cfg1.N (ix2 p q) = yEntry V c p q := by
  rw [final1_y V c]; rfl
/-- The statistics array after the region: the per-block column sums of `y` and of its square. -/
theorem final1_stats (c : Dev nD) : (dat1 (F := Ideal) V c).arrAt 5 cfg1.N = statArr V c :=
  (dat1 (F := Ideal) V c).arrAt_eq_of_cover 5 (statArr V c) (fun t _ => Region1.flushed5_eq V c t) Region1.cover5

theorem final1_sum_apply (c : Dev nD) (t : Fin 20) (q : Fin 128) :
    (dat1 (F := Ideal) V c).arrAt 5 cfg1.N (ix3 t (0 : Fin 2) q) = 0 + ∑ r : Fin 5000, yEntry V c (rowOf t r) q := by
  rw [final1_stats V c, zero_add]; exact (statArr_apply V c t 0 q).trans (if_pos rfl)

theorem final1_sq_apply (c : Dev nD) (t : Fin 20) (q : Fin 128) :
    (dat1 (F := Ideal) V c).arrAt 5 cfg1.N (ix3 t (1 : Fin 2) q)
      = 0 + ∑ r : Fin 5000, yEntry V c (rowOf t r) q * yEntry V c (rowOf t r) q := by
  rw [final1_stats V c, zero_add]; exact (statArr_apply V c t 1 q).trans (if_neg (by decide))

end Cert.KernelIdeal.RegionValue
end
-- ==== Proof.LibGatherVec.lean ====
/-
  A gather of single entries of a vector at a column of start indices, read at an index.

  `x[idx]` for a flat array `x : [N]` and an integer array `idx : [M]` reaches the host as a gather whose start indices are
  the column `[M, 1]`: no offset axis, the operand's one axis collapsed, slices of one entry, the index vector along the
  column's second axis. Result entry `s` is `x` at the start index `idx[s, 0]`, read as a signed integer and clamped into
  `[0, N − 1]`, as every start index of a gather is clamped.
-/
import Idealize.ShloMosaic.Lib.ValueIdx

noncomputable section

namespace Cert.GatherVec

open Idealize.ShloMosaic Idealize.ShloMosaic.ValueIdx

variable {α : Type}

/-- Those dimension numbers for an operand `[N]`, start indices `[M, 1]` and a result `[M]`. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `s`: the operand at the start index `idx[s, 0]`, read signed and clamped into `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (s : Fin M) :
    Host.gather (vecDims N M wf) x idx (ix1 s)
      = x (ix1 ⟨min (idx (ix2 s (0 : Fin 1))).toInt.toNat (N - 1), by omega⟩) := by
  unfold Host.gather
  congr 1
  funext a
  obtain rfl : a = 0 := Subsingleton.elim _ _
  refine Fin.ext ?_
  show (vecDims N M wf).start (ix1 s) idx 0 + (vecDims N M wf).batchCoord (ix1 s) 0 + (vecDims N M wf).offCoord (ix1 s) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 s) ⟨List.idxOf (0 : Fin 1) (vecDims N M wf).startIndexMap,
      List.idxOf_lt_length_iff.2 (List.mem_singleton.mpr rfl)⟩ = ix2 s (0 : Fin 1) := by
    funext b; refine Fin.ext ?_
    match b with
    | ⟨0, _⟩ => rfl
    | ⟨1, _⟩ => rfl
  rw [hsi]
  rfl

end Cert.GatherVec

end
-- ==== Proof.LibGatherRows.lean ====
/-
  A gather of whole rows of a rank-2 array at a column of start indices, read at an index.

  `x[idx]` for an array `x : [N, C]` and an integer array `idx : [M]` reaches the host as a gather whose start indices are
  the column `[M, 1]`: the result's second axis is the one offset axis, the operand's first axis is collapsed and is the
  one the start index names, slices are one row `[1, C]`, the index vector lies along the column's second axis. Result
  entry `(s, q)` is `x` at row `idx[s, 0]`, read as a signed integer and clamped into `[0, N − 1]` as every start index of
  a gather is clamped, and column `q`. The dimension numbers enter through their fields, so any record with these fields
  reads this way; the gather of single entries of a vector is restated in the same form.
-/
import Idealize.ShloMosaic.Lib.ValueIdx
import proofs.«159187_j41918880809282_2_alg».proof.Proof.LibGatherVec

noncomputable section

namespace Cert.GatherRows

open Idealize.ShloMosaic Idealize.ShloMosaic.ValueIdx

variable {α : Type}

/-- Two records of gather dimension numbers with the same fields are the same record. -/
theorem gatherDims_eq {s si t : Shape} (d d' : GatherDims s si t) (h1 : d.offsetDims = d'.offsetDims)
    (h2 : d.collapsedSliceDims = d'.collapsedSliceDims) (h3 : d.operandBatchingDims = d'.operandBatchingDims)
    (h4 : d.startIndicesBatchingDims = d'.startIndicesBatchingDims) (h5 : d.startIndexMap = d'.startIndexMap)
    (h6 : d.indexVectorDim = d'.indexVectorDim) (h7 : d.sliceSizes = d'.sliceSizes) : d = d' := by
  obtain ⟨od, cd, ob, sb, sm, iv, ss, wf⟩ := d
  obtain ⟨od', cd', ob', sb', sm', iv', ss', wf'⟩ := d'
  dsimp only at h1 h2 h3 h4 h5 h6 h7
  subst h1 h2 h3 h4 h5 h6 h7
  rfl

/-- THE GATHER OF ROWS READ AT `(s, q)`: the operand at row `idx[s, 0]`, read signed and clamped into `[0, N − 1]`, and
    column `q`. -/
theorem gather_rows_apply {N C M w : Nat} (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![M, 1]⟩ w) (s : Fin M) (q : Fin C) :
    Host.gather d x idx (ix2 s q)
      = x (ix2 ⟨min (idx (ix2 s (0 : Fin 1))).toInt.toNat (N - 1), by omega⟩ q) := by
  obtain ⟨od, cd, ob, sb, sm, iv, ss, wf⟩ := d
  dsimp only at h1 h2 h3 h4 h5 h6 h7
  subst h1 h2 h3 h4 h5 h6 h7
  generalize hD : (⟨[1], [0], [], [], [0], 1, ![1, C], wf⟩ : GatherDims ⟨2, ![N, C]⟩ ⟨2, ![M, 1]⟩ ⟨2, ![M, C]⟩) = D
  have hsm : D.startIndexMap = [0] := by subst hD; rfl
  have hob : D.operandBatchingDims = [] := by subst hD; rfl
  have hcd : D.collapsedSliceDims = [0] := by subst hD; rfl
  unfold Host.gather
  congr 1
  funext a
  refine Fin.ext ?_
  match a with
  | ⟨0, _⟩ =>
    show D.start (ix2 s q) idx 0 + D.batchCoord (ix2 s q) 0 + D.offCoord (ix2 s q) 0 = _
    rw [GatherDims.batchCoord_eq_zero _ _ _ (by rw [hob]; exact List.not_mem_nil),
      GatherDims.offCoord_eq_zero _ _ _ (fun h => ((GatherDims.mem_sKept _ _).mp h).1 (by rw [hcd]; exact List.mem_singleton.mpr rfl))]
    simp only [Nat.add_zero]
    subst hD
    unfold GatherDims.start
    rw [dif_pos (List.mem_singleton.mpr rfl)]
    have hsi : (⟨[1], [0], [], [], [0], 1, ![1, C], wf⟩ : GatherDims ⟨2, ![N, C]⟩ ⟨2, ![M, 1]⟩ ⟨2, ![M, C]⟩).siIdx (ix2 s q)
        ⟨List.idxOf (0 : Fin 2) [0], List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show D.start (ix2 s q) idx 1 + D.batchCoord (ix2 s q) 1 + D.offCoord (ix2 s q) 1 = q.val
    rw [GatherDims.batchCoord_eq_zero _ _ _ (by rw [hob]; exact List.not_mem_nil)]
    have hst : D.start (ix2 s q) idx 1 = 0 := by
      unfold GatherDims.start
      rw [dif_neg (by rw [hsm]; exact fun hm => Nat.one_ne_zero (congrArg Fin.val (List.mem_singleton.mp hm)))]
    rw [hst]
    subst hD
    unfold GatherDims.offCoord
    rw [dif_pos ((GatherDims.mem_sKept _ _).mpr
      ⟨fun hm => Nat.one_ne_zero (congrArg Fin.val (List.mem_singleton.mp hm)), List.not_mem_nil⟩)]
    simp only [Nat.zero_add, Nat.add_zero]
    rfl

/-- THE GATHER OF ENTRIES OF A VECTOR READ AT `s`, the dimension numbers given by their fields: the operand at the start
    index `idx[s, 0]`, read signed and clamped into `[0, N − 1]`. -/
theorem gather_vec_apply' {N M w : Nat} (hN : 0 < N) (d : GatherDims ⟨1, ![N]⟩ ⟨2, ![M, 1]⟩ ⟨1, ![M]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![M, 1]⟩ w) (s : Fin M) :
    Host.gather d x idx (ix1 s) = x (ix1 ⟨min (idx (ix2 s (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact Cert.GatherVec.gather_vec_apply hN wf x idx s

end Cert.GatherRows

end
-- ==== Proof.LibSegmentSum.lean ====
/-
  A segment sum over edges, read at one entry: the accumulating scatter as a plain sum over edges.

  A segment sum scatters one update per edge into an operand and adds. Two shapes occur. ROWS: updates `[M, C]` go into
  an operand `[N, C]` at a column `[M, 1]` of scatter indices; the updates' second axis is the one window axis, the
  operand's first axis is inserted and is the one the scatter index names, and the index vector lies along the column's
  second axis. VECTOR: updates `[M]` go into an operand `[N]` at the same column of scatter indices; there is no window
  axis, the operand's only axis is inserted and named by the scatter index.

  An update lands at start plus window coordinate on every operand axis. On the named axis the start is the edge's scatter
  index read as a SIGNED integer, not clamped, and the window coordinate is zero; on the rows' column axis the start is
  zero and the window coordinate is the update's column. An update whose landing place is outside the operand is dropped.
  Hence the update of edge `e` (in column `q`) lands on row `p` (column `q'`) exactly when the scatter index of `e`, read
  signed, equals `p` (and `q = q'`): a negative or too large index names no row and contributes nothing.

  At the exact-arithmetic instance the accumulating scatter at an entry is that entry plus the sum of all updates landing
  on it. Reindexing the landing updates by their edge (the map `e ↦ (e, q)`, resp. `e ↦ (e)`, is a bijection from the
  edges whose index is `p` onto the updates landing on the entry) gives the scatter at `(p, q)` as
  `x[p, q] + ∑ over edges e with idx[e, 0] = p of upd[e, q]`, and at `p` as `x[p] + ∑ over the same edges of upd[e]`.

  The dimension numbers enter through their fields, so the statements apply to any record with those fields.
-/
import Idealize.ShloMosaic.PureOps
import Idealize.ShloMosaic.Lib.ValueIdx
import Idealize.ShloMosaic.PureOps.Ideal

noncomputable section

namespace Cert.SegmentSum

open Idealize.ShloMosaic Idealize.ShloMosaic.ValueIdx

/-! ## Rows: updates `[M, C]` into an operand `[N, C]` -/

/-- Rows: the window start on the row axis is the scatter index of the edge, read signed. -/
theorem rows_start_zero {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) :
    d.start (ix2 e q) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[1], [0], [0], 1, wf⟩ : ScatterDims ⟨2, ![N, C]⟩ ⟨2, ![M, 1]⟩ ⟨2, ![M, C]⟩).siIdx (ix2 e q)
      ⟨List.idxOf (0 : Fin 2) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Rows: the column axis is not named by the scatter index, so its window start is zero. -/
theorem rows_start_one {N C M w : Nat} (d : ScatterDims ⟨2, ![N, C]⟩ ⟨2, ![M, 1]⟩ ⟨2, ![M, C]⟩)
    (h3 : d.scatterDimsToOperandDims = [0]) (idx : IVec ⟨2, ![M, 1]⟩ w) (j : (⟨2, ![M, C]⟩ : Shape).Idx) :
    d.start j idx 1 = 0 := by
  unfold ScatterDims.start
  rw [dif_neg (by rw [h3]; simp)]

/-- Rows: the row axis is inserted, so its window coordinate is zero. -/
theorem rows_window_zero {N C M : Nat} (d : ScatterDims ⟨2, ![N, C]⟩ ⟨2, ![M, 1]⟩ ⟨2, ![M, C]⟩)
    (h2 : d.insertedWindowDims = [0]) (j : (⟨2, ![M, C]⟩ : Shape).Idx) : d.window j 0 = 0 := by
  unfold ScatterDims.window
  rw [dif_neg (by simp [ScatterDims.sKept, Shape.kept, h2])]

/-- Rows: the window coordinate on the column axis is the update's column. -/
theorem rows_window_one {N C M : Nat} (d : ScatterDims ⟨2, ![N, C]⟩ ⟨2, ![M, 1]⟩ ⟨2, ![M, C]⟩)
    (h1 : d.updateWindowDims = [1]) (h2 : d.insertedWindowDims = [0]) (e : Fin M) (q : Fin C) :
    d.window (ix2 e q) 1 = q.val := by
  obtain ⟨uw, iw, sd, iv, wf⟩ := d
  dsimp only at h1 h2
  subst h1 h2
  unfold ScatterDims.window
  rw [dif_pos (by simp [ScatterDims.sKept, Shape.kept])]
  rfl

/-- ROWS, WHERE AN UPDATE LANDS: the update at `(e, q)` lands on the entry `(p, q')` exactly when the scatter index of
    edge `e`, read signed, is the row `p`, and the columns agree. -/
theorem rows_lands_iff {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) (p : Fin N) (q' : Fin C) :
    d.resultIdx? (ix2 e q) idx = some (ix2 p q') ↔ (idx (ix2 e (0 : Fin 1))).toInt = (p.val : Int) ∧ q = q' := by
  have hs0 := rows_start_zero d h1 h2 h3 h4 idx e q
  have hs1 := rows_start_one d h3 idx (ix2 e q)
  have hw0 := rows_window_zero d h2 (ix2 e q)
  have hw1 := rows_window_one d h1 h2 e q
  unfold ScatterDims.resultIdx?
  constructor
  · intro h
    split at h
    · rename_i hb
      have hi := Option.some.inj h
      have b0 := (hb 0).1
      have e0 : (d.start (ix2 e q) idx 0 + (d.window (ix2 e q) 0 : Int)).toNat = p.val :=
        congrArg (fun f : (⟨2, ![N, C]⟩ : Shape).Idx => (f 0).val) hi
      have e1 : (d.start (ix2 e q) idx 1 + (d.window (ix2 e q) 1 : Int)).toNat = q'.val :=
        congrArg (fun f : (⟨2, ![N, C]⟩ : Shape).Idx => (f 1).val) hi
      rw [hs0, hw0] at e0 b0
      rw [hs1, hw1] at e1
      exact ⟨by omega, Fin.ext (by omega)⟩
    · exact absurd h (by simp)
  · rintro ⟨ht, rfl⟩
    have hb : ∀ a, 0 ≤ d.start (ix2 e q) idx a + d.window (ix2 e q) a ∧
        d.start (ix2 e q) idx a + d.window (ix2 e q) a < (⟨2, ![N, C]⟩ : Shape).size a := by
      intro a
      match a with
      | ⟨0, _⟩ =>
        show 0 ≤ d.start (ix2 e q) idx 0 + (d.window (ix2 e q) 0 : Int) ∧
          d.start (ix2 e q) idx 0 + (d.window (ix2 e q) 0 : Int) < (N : Int)
        rw [hs0, hw0, ht]; have := p.isLt; omega
      | ⟨1, _⟩ =>
        show 0 ≤ d.start (ix2 e q) idx 1 + (d.window (ix2 e q) 1 : Int) ∧
          d.start (ix2 e q) idx 1 + (d.window (ix2 e q) 1 : Int) < (C : Int)
        rw [hs1, hw1]; have := q.isLt; omega
    rw [dif_pos hb]
    congr 1
    funext a; refine Fin.ext ?_
    match a with
    | ⟨0, _⟩ =>
      show (d.start (ix2 e q) idx 0 + (d.window (ix2 e q) 0 : Int)).toNat = p.val
      rw [hs0, hw0, ht]; omega
    | ⟨1, _⟩ =>
      show (d.start (ix2 e q) idx 1 + (d.window (ix2 e q) 1 : Int)).toNat = q.val
      rw [hs1, hw1]; omega

/-- ROWS, THE SEGMENT SUM AT AN ENTRY: the accumulating scatter at `(p, q)` is the operand's entry plus the sum, over the
    edges whose scatter index read signed is the row `p`, of the updates' entries in column `q`. -/
theorem segSumRows_apply {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (x : FVec Ideal ⟨2, ![N, C]⟩ .f32)
    (upd : FVec Ideal ⟨2, ![M, C]⟩ .f32) (p : Fin N) (q : Fin C) :
    Host.scatterAdd (F := Ideal) d x idx upd (ix2 p q) = x (ix2 p q) +
      ∑ e ∈ Finset.univ.filter (fun e : Fin M => (idx (ix2 e (0 : Fin 1))).toInt = (p.val : Int)), upd (ix2 e q) := by
  show x (ix2 p q) + ∑ j ∈ Finset.univ.filter (fun j => d.resultIdx? j idx = some (ix2 p q)), upd j = _
  congr 1
  symm
  refine Finset.sum_nbij' (fun e : Fin M => ix2 e q) (fun j : (⟨2, ![M, C]⟩ : Shape).Idx => (j 0 : Fin M)) ?_ ?_ ?_ ?_ ?_
  · intro e he
    exact Finset.mem_filter.2 ⟨Finset.mem_univ _,
      (rows_lands_iff d h1 h2 h3 h4 idx e q p q).2 ⟨(Finset.mem_filter.1 he).2, rfl⟩⟩
  · intro j hj
    have hj2 := (Finset.mem_filter.1 hj).2
    rw [eq_ix2 j] at hj2
    exact Finset.mem_filter.2 ⟨Finset.mem_univ _, ((rows_lands_iff d h1 h2 h3 h4 idx (j 0) (j 1) p q).1 hj2).1⟩
  · intro e _
    rfl
  · intro j hj
    have hj2 := (Finset.mem_filter.1 hj).2
    rw [eq_ix2 j] at hj2
    have hq := ((rows_lands_iff d h1 h2 h3 h4 idx (j 0) (j 1) p q).1 hj2).2
    show ix2 (j 0) q = j
    rw [← hq]
    exact (eq_ix2 j).symm
  · intro e _
    rfl

/-! ## Vector: updates `[M]` into an operand `[N]` -/

/-- Vector: the window start on the only axis is the scatter index of the edge, read signed. -/
theorem vec_start_zero {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) :
    d.start (ix1 e) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[], [0], [0], 1, wf⟩ : ScatterDims ⟨1, ![N]⟩ ⟨2, ![M, 1]⟩ ⟨1, ![M]⟩).siIdx (ix1 e)
      ⟨List.idxOf (0 : Fin 1) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Vector: the only axis is inserted, so its window coordinate is zero. -/
theorem vec_window_zero {N M : Nat} (d : ScatterDims ⟨1, ![N]⟩ ⟨2, ![M, 1]⟩ ⟨1, ![M]⟩)
    (h2 : d.insertedWindowDims = [0]) (j : (⟨1, ![M]⟩ : Shape).Idx) : d.window j 0 = 0 := by
  unfold ScatterDims.window
  rw [dif_neg (by simp [ScatterDims.sKept, Shape.kept, h2])]

/-- VECTOR, WHERE AN UPDATE LANDS: the update of edge `e` lands on the entry `p` exactly when the scatter index of `e`,
    read signed, is `p`. -/
theorem vec_lands_iff {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) (p : Fin N) :
    d.resultIdx? (ix1 e) idx = some (ix1 p) ↔ (idx (ix2 e (0 : Fin 1))).toInt = (p.val : Int) := by
  have hs0 := vec_start_zero d h1 h2 h3 h4 idx e
  have hw0 := vec_window_zero d h2 (ix1 e)
  unfold ScatterDims.resultIdx?
  constructor
  · intro h
    split at h
    · rename_i hb
      have hi := Option.some.inj h
      have b0 := (hb 0).1
      have e0 : (d.start (ix1 e) idx 0 + (d.window (ix1 e) 0 : Int)).toNat = p.val :=
        congrArg (fun f : (⟨1, ![N]⟩ : Shape).Idx => (f 0).val) hi
      rw [hs0, hw0] at e0 b0
      omega
    · exact absurd h (by simp)
  · intro ht
    have hb : ∀ a, 0 ≤ d.start (ix1 e) idx a + d.window (ix1 e) a ∧
        d.start (ix1 e) idx a + d.window (ix1 e) a < (⟨1, ![N]⟩ : Shape).size a := by
      intro a
      match a with
      | ⟨0, _⟩ =>
        show 0 ≤ d.start (ix1 e) idx 0 + (d.window (ix1 e) 0 : Int) ∧
          d.start (ix1 e) idx 0 + (d.window (ix1 e) 0 : Int) < (N : Int)
        rw [hs0, hw0, ht]; have := p.isLt; omega
    rw [dif_pos hb]
    congr 1
    funext a; refine Fin.ext ?_
    match a with
    | ⟨0, _⟩ =>
      show (d.start (ix1 e) idx 0 + (d.window (ix1 e) 0 : Int)).toNat = p.val
      rw [hs0, hw0, ht]; omega

/-- VECTOR, THE SEGMENT SUM AT AN ENTRY: the accumulating scatter at `p` is the operand's entry plus the sum, over the
    edges whose scatter index read signed is `p`, of the updates' entries. -/
theorem segSumVec_apply {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (x : FVec Ideal ⟨1, ![N]⟩ .f32)
    (upd : FVec Ideal ⟨1, ![M]⟩ .f32) (p : Fin N) :
    Host.scatterAdd (F := Ideal) d x idx upd (ix1 p) = x (ix1 p) +
      ∑ e ∈ Finset.univ.filter (fun e : Fin M => (idx (ix2 e (0 : Fin 1))).toInt = (p.val : Int)), upd (ix1 e) := by
  show x (ix1 p) + ∑ j ∈ Finset.univ.filter (fun j => d.resultIdx? j idx = some (ix1 p)), upd j = _
  congr 1
  symm
  refine Finset.sum_nbij' (fun e : Fin M => ix1 e) (fun j : (⟨1, ![M]⟩ : Shape).Idx => (j 0 : Fin M)) ?_ ?_ ?_ ?_ ?_
  · intro e he
    exact Finset.mem_filter.2 ⟨Finset.mem_univ _,
      (vec_lands_iff d h1 h2 h3 h4 idx e p).2 (Finset.mem_filter.1 he).2⟩
  · intro j hj
    have hj2 := (Finset.mem_filter.1 hj).2
    rw [eq_ix1 j] at hj2
    exact Finset.mem_filter.2 ⟨Finset.mem_univ _, (vec_lands_iff d h1 h2 h3 h4 idx (j 0) p).1 hj2⟩
  · intro e _
    rfl
  · intro j _
    exact (eq_ix1 j).symm
  · intro e _
    rfl

end Cert.SegmentSum

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«159187_j41918880809282_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibGcnFold.lean ====
/-
  Folding a symmetric degree normalisation out of a sum over edges, on the extended reals.

  A graph convolution scales the message of edge `e` by `d (src e) · d (dst e)` and sums the messages over the edges
  that arrive at a node `p`. On those edges `d (dst e)` is the one number `c = d p`, so it can be taken out of the sum:
  `∑ t e · (d e · c) = c · ∑ t e · d e`. On the extended reals a product distributes over a sum only under a
  condition; here the factor is a nonnegative finite number (a reciprocal square root of a count, or zero), and for such
  a factor it does, whatever the summands are. No finiteness of the messages is needed.
-/
import Mathlib.Data.EReal.Operations
import Idealize.ShloMosaic.PureOps.Ideal

noncomputable section

namespace Cert.GcnFold

open Idealize.ShloMosaic

variable {ι : Type}

/-- A nonnegative finite factor distributes over a finite sum of extended reals. -/
theorem mul_sum (s : Finset ι) (c : EReal) (h0 : 0 ≤ c) (ht : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 ht, ih]

/-- THE FOLD: the factor `c` common to the edges of the sum, taken out of it. The sums start from zero, as an
    accumulating scatter into a zero array reads. -/
theorem fold_out (s : Finset ι) (c : EReal) (h0 : 0 ≤ c) (ht : c ≠ ⊤) (t d d' : ι → EReal)
    (hd : ∀ e ∈ s, d' e = c) :
    c * (0 + ∑ e ∈ s, t e * d e) = 0 + ∑ e ∈ s, t e * (d e * d' e) := by
  rw [zero_add, zero_add, mul_sum s c h0 ht]
  refine Finset.sum_congr rfl fun e he => ?_
  rw [hd e he, mul_left_comm, mul_comm c (d e)]

/-- A guarded reciprocal square root — `1/√x` where `x > 0`, zero elsewhere — is a nonnegative finite number for every
    extended real `x`: at `+∞` the reciprocal square root is `0`, and at a positive real it is a positive real. -/
theorem guarded_rsqrt (x : EReal) :
    0 ≤ Scalar.select (Ideal.cmp .ogt x 0) (Ideal.rsqrt x) (0 : EReal) ∧
      Scalar.select (Ideal.cmp .ogt x 0) (Ideal.rsqrt x) (0 : EReal) ≠ ⊤ := by
  unfold Scalar.select Ideal.cmp
  by_cases h : (0 : EReal) < x
  · have h1 : BitVec.ofBool (decide ((0 : EReal) < x)) = 1 := by rw [decide_eq_true h]; rfl
    dsimp only
    rw [if_pos h1]
    induction x using EReal.rec with
    | bot => exact absurd h (by simp)
    | top => rw [Ideal.rsqrt_top]; exact ⟨le_refl 0, EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have h1 : ¬ BitVec.ofBool (decide ((0 : EReal) < x)) = 1 := by rw [decide_eq_false h]; decide
    dsimp only
    rw [if_neg h1]
    exact ⟨le_refl 0, EReal.zero_ne_top⟩

end Cert.GcnFold

end
-- ==== Proof.LibGcnHost.lean ====
/-
  One graph-convolution layer in two host spellings, on the extended reals, read at an index.

  Nodes are numbered `0 … N-1`; an edge `e` carries a source entry, a destination entry and a weight `w e`; `d` is a
  per-node factor. The layer maps an `[N, C]` array `X` to

      out (p, q) = Σ over the edges e that arrive at p of  d (src e) · w e · d (dst e) · X (src e, q)   +   b q .

  The first spelling (`kLayer`) scales the rows of `X` by `d` before gathering them along the edges, multiplies by the
  weight, sums per destination and scales the rows of the sum by `d` once more. The second (`rLayer`) gathers the
  plain rows and multiplies each by the edge's whole coefficient `d (src e) · w e · d (dst e)` before summing. On the
  edges that arrive at `p` the factor `d (dst e)` is the one number `d p`, and a nonnegative finite factor
  distributes over a sum of extended reals whatever the summands are, so the two spellings agree wherever `d` is
  nonnegative and finite; nothing is asked of `X`, `w` or `b`.

  Integer entries are read as the host reads them: a gather clamps its (already wrapped) index into `0 … N-1`
  (`node`), a negative index counts from the end (`wrap`), and the accumulating scatter takes exactly the edges whose
  destination entry, read signed, is the row.
-/
import Idealize.ShloMosaic.PureOps.Ideal.Laws
import Idealize.ShloMosaic.Lib.ValueIdx
import proofs.«159187_j41918880809282_2_alg».proof.Proof.LibGatherRows
import proofs.«159187_j41918880809282_2_alg».proof.Proof.LibSegmentSum
import proofs.«159187_j41918880809282_2_alg».proof.Proof.LibHostLayout
import proofs.«159187_j41918880809282_2_alg».proof.Proof.LibGcnFold

open scoped BigOperators

noncomputable section

namespace Cert.GcnHost

open Idealize.ShloMosaic Idealize.ShloMosaic.ValueIdx

variable {N C M : ℕ}

/-- The node an integer entry names to a gather: read signed, clamped into `0 … N-1`. -/
def node (hN : 0 < N) (v : BitVec 32) : Fin N := ⟨min v.toInt.toNat (N - 1), by omega⟩

/-- A negative entry counts from the end: `nn` (the node count) is added to it. -/
def wrap (nn : BitVec 32) (h0 : (⟨0, ![]⟩ : Shape).BroadcastsInDim ⟨1, ![M]⟩ ![]) (r : IVec ⟨1, ![M]⟩ 32) :
    IVec ⟨1, ![M]⟩ 32 :=
  select (cmpi .slt r (broadcastInDim ⟨1, ![M]⟩ ![] h0 (constantI ⟨0, ![]⟩ 32 0#32)))
    (addi r (broadcastInDim ⟨1, ![M]⟩ ![] h0 (constantI ⟨0, ![]⟩ 32 nn))) r

/-- An entry that reads as a node number is not negative, so wrapping leaves it, and the gather's clamp finds that node. -/
theorem node_wrap (hN : 0 < N) (nn : BitVec 32) (h0 : (⟨0, ![]⟩ : Shape).BroadcastsInDim ⟨1, ![M]⟩ ![])
    (r : IVec ⟨1, ![M]⟩ 32) (e : Fin M) (p : Fin N) (h : (r (ix1 e)).toInt = (p.val : Int)) :
    node hN (wrap nn h0 r (ix1 e)) = p := by
  have hns : (r (ix1 e)).slt 0#32 = false := by
    rw [BitVec.slt, h]; simp
  have hw : wrap nn h0 r (ix1 e) = r (ix1 e) := by
    unfold wrap
    rw [select_apply]
    show Scalar.select (IntOp.cmpi .slt (r (ix1 e)) _) _ _ = _
    have : IntOp.cmpi .slt (r (ix1 e)) (broadcastInDim ⟨1, ![M]⟩ ![] h0 (constantI ⟨0, ![]⟩ 32 0#32) (ix1 e)) = 0#1 := by
      show BitVec.ofBool ((r (ix1 e)).slt 0#32) = 0#1
      rw [hns]; rfl
    rw [this, select_zero]
  rw [hw]
  apply Fin.ext
  show min (r (ix1 e)).toInt.toNat (N - 1) = p.val
  rw [h]
  have := p.isLt
  simp only [Int.toNat_natCast]
  omega

/-- A gather of rows reads row `node` of its index entry. -/
theorem gather_rows_node (hN : 0 < N) {α : Type} (gd : GatherDims ⟨2, ![N, C]⟩ ⟨2, ![M, 1]⟩ ⟨2, ![M, C]⟩)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, C]) (x : (⟨2, ![N, C]⟩ : Shape).Idx → α) (idx : IVec ⟨2, ![M, 1]⟩ 32) (s : Fin M) (q : Fin C) :
    Host.gather gd x idx (ix2 s q) = x (ix2 (node hN (idx (ix2 s (0 : Fin 1)))) q) :=
  GatherRows.gather_rows_apply hN gd g1 g2 g3 g4 g5 g6 g7 x idx s q

/-- A gather from a vector reads entry `node` of its index entry. -/
theorem gather_vec_node (hN : 0 < N) {α : Type} (gv : GatherDims ⟨1, ![N]⟩ ⟨2, ![M, 1]⟩ ⟨1, ![M]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1]) (x : (⟨1, ![N]⟩ : Shape).Idx → α) (idx : IVec ⟨2, ![M, 1]⟩ 32) (s : Fin M) :
    Host.gather gv x idx (ix1 s) = x (ix1 (node hN (idx (ix2 s (0 : Fin 1))))) :=
  GatherRows.gather_vec_apply' hN gv v1 v2 v3 v4 v5 v6 v7 x idx s

section Layers

variable (gd : GatherDims ⟨2, ![N, C]⟩ ⟨2, ![M, 1]⟩ ⟨2, ![M, C]⟩) (sd : ScatterDims ⟨2, ![N, C]⟩ ⟨2, ![M, 1]⟩ ⟨2, ![M, C]⟩)
  (gv : GatherDims ⟨1, ![N]⟩ ⟨2, ![M, 1]⟩ ⟨1, ![M]⟩)
  (hv : (⟨1, ![N]⟩ : Shape).BroadcastsInDim ⟨2, ![N, 1]⟩ ![0])
  (hc : (⟨2, ![N, 1]⟩ : Shape).BroadcastsInDim ⟨2, ![N, C]⟩ ![0, 1])
  (hi : (⟨1, ![M]⟩ : Shape).BroadcastsInDim ⟨2, ![M, 1]⟩ ![0])
  (hwc : (⟨2, ![M, 1]⟩ : Shape).BroadcastsInDim ⟨2, ![M, C]⟩ ![0, 1])
  (hz : (⟨0, ![]⟩ : Shape).BroadcastsInDim ⟨2, ![N, C]⟩ ![])
  (hb1 : (⟨1, ![C]⟩ : Shape).BroadcastsInDim ⟨2, ![1, C]⟩ ![1])
  (hb2 : (⟨2, ![1, C]⟩ : Shape).BroadcastsInDim ⟨2, ![N, C]⟩ ![0, 1])
  (d : FVec Ideal ⟨1, ![N]⟩ .f32) (rw cw col : IVec ⟨1, ![M]⟩ 32) (w : FVec Ideal ⟨1, ![M]⟩ .f32)
  (X : FVec Ideal ⟨2, ![N, C]⟩ .f32) (b : FVec Ideal ⟨1, ![C]⟩ .f32)

/-- The first spelling: rows scaled by `d`, gathered along the edges (`rw`: the source entries, wrapped), weighted,
    summed per destination (`col`) into a zero array, rows scaled by `d` again, the bias row added. -/
def kLayer : FVec Ideal ⟨2, ![N, C]⟩ .f32 :=
  addf (mulf (broadcastInDim ⟨2, ![N, C]⟩ ![0, 1] hc (broadcastInDim ⟨2, ![N, 1]⟩ ![0] hv d))
      (Host.scatterAdd sd (broadcastInDim ⟨2, ![N, C]⟩ ![] hz (constant ⟨0, ![]⟩ .f32 0x00000000#32))
        (broadcastInDim ⟨2, ![M, 1]⟩ ![0] hi col)
        (mulf (Host.gather gd (mulf (broadcastInDim ⟨2, ![N, C]⟩ ![0, 1] hc (broadcastInDim ⟨2, ![N, 1]⟩ ![0] hv d)) X)
            (broadcastInDim ⟨2, ![M, 1]⟩ ![0] hi rw))
          (broadcastInDim ⟨2, ![M, C]⟩ ![0, 1] hwc (broadcastInDim ⟨2, ![M, 1]⟩ ![0] hi w)))))
    (broadcastInDim ⟨2, ![N, C]⟩ ![0, 1] hb2 (broadcastInDim ⟨2, ![1, C]⟩ ![1] hb1 b))

/-- The edge coefficient of the second spelling: `d` at the source, the weight, `d` at the destination (`cw`: the
    destination entries, wrapped). -/
def coef : FVec Ideal ⟨1, ![M]⟩ .f32 :=
  mulf (mulf (Host.gather gv d (broadcastInDim ⟨2, ![M, 1]⟩ ![0] hi rw)) w)
    (Host.gather gv d (broadcastInDim ⟨2, ![M, 1]⟩ ![0] hi cw))

/-- The second spelling: plain rows gathered along the edges, each times its edge's coefficient `nrm`, summed per
    destination into a zero array, the bias row added. -/
def rLayer (nrm : FVec Ideal ⟨1, ![M]⟩ .f32) : FVec Ideal ⟨2, ![N, C]⟩ .f32 :=
  addf (Host.scatterAdd sd (broadcastInDim ⟨2, ![N, C]⟩ ![] hz (constant ⟨0, ![]⟩ .f32 0x00000000#32))
      (broadcastInDim ⟨2, ![M, 1]⟩ ![0] hi col)
      (mulf (Host.gather gd X (broadcastInDim ⟨2, ![M, 1]⟩ ![0] hi rw))
        (broadcastInDim ⟨2, ![M, C]⟩ ![0, 1] hwc (broadcastInDim ⟨2, ![M, 1]⟩ ![0] hi nrm))))
    (broadcastInDim ⟨2, ![N, C]⟩ ![0, 1] hb2 (broadcastInDim ⟨2, ![1, C]⟩ ![1] hb1 b))

variable (hN : 0 < N)
  (g1 : gd.offsetDims = [1]) (g2 : gd.collapsedSliceDims = [0]) (g3 : gd.operandBatchingDims = [])
  (g4 : gd.startIndicesBatchingDims = []) (g5 : gd.startIndexMap = [0]) (g6 : gd.indexVectorDim = 1)
  (g7 : gd.sliceSizes = ![1, C])
  (s1 : sd.updateWindowDims = [1]) (s2 : sd.insertedWindowDims = [0]) (s3 : sd.scatterDimsToOperandDims = [0])
  (s4 : sd.indexVectorDim = 1)
  (v1 : gv.offsetDims = []) (v2 : gv.collapsedSliceDims = [0]) (v3 : gv.operandBatchingDims = [])
  (v4 : gv.startIndicesBatchingDims = []) (v5 : gv.startIndexMap = [0]) (v6 : gv.indexVectorDim = 1)
  (v7 : gv.sliceSizes = ![1])

/-- The edges that arrive at node `p`: the destination entry, read signed, is `p`. -/
def arriving (col : IVec ⟨1, ![M]⟩ 32) (p : Fin N) : Finset (Fin M) :=
  Finset.univ.filter fun e : Fin M => (col (ix1 e)).toInt = (p.val : Int)

include g1 g2 g3 g4 g5 g6 g7 s1 s2 s3 s4 in
/-- The first spelling at `(p, q)`. -/
theorem kLayer_apply (p : Fin N) (q : Fin C) :
    kLayer gd sd hv hc hi hwc hz hb1 hb2 d rw col w X b (ix2 p q)
      = d (ix1 p) * (0 + ∑ e ∈ arriving col p,
          (d (ix1 (node hN (rw (ix1 e)))) * X (ix2 (node hN (rw (ix1 e))) q)) * w (ix1 e)) + b (ix1 q) := by
  unfold kLayer arriving
  rw [addf_apply, mulf_apply, HostLayout.bcast_col_mat, HostLayout.bcast_vec_col, HostLayout.bcast_vec_mat,
    SegmentSum.segSumRows_apply sd s1 s2 s3 s4, HostLayout.bcast_scalar_mat, constant_apply, Ideal.ofBits_zero_f32]
  congr 3
  refine Finset.sum_congr ?_ fun e _ => ?_
  · ext e
    simp only [Finset.mem_filter, Finset.mem_univ, true_and]
    rw [HostLayout.bcast_vec_col]
  · rw [mulf_apply, gather_rows_node hN gd g1 g2 g3 g4 g5 g6 g7, mulf_apply, HostLayout.bcast_col_mat,
      HostLayout.bcast_vec_col, HostLayout.bcast_col_mat, HostLayout.bcast_vec_col, HostLayout.bcast_vec_col]

include v1 v2 v3 v4 v5 v6 v7 in
/-- The edge coefficient at edge `e`. -/
theorem coef_apply (e : Fin M) :
    coef gv hi d rw cw w (ix1 e)
      = (d (ix1 (node hN (rw (ix1 e)))) * w (ix1 e)) * d (ix1 (node hN (cw (ix1 e)))) := by
  unfold coef
  rw [mulf_apply, mulf_apply, gather_vec_node hN gv v1 v2 v3 v4 v5 v6 v7,
    gather_vec_node hN gv v1 v2 v3 v4 v5 v6 v7, HostLayout.bcast_vec_col, HostLayout.bcast_vec_col]

include g1 g2 g3 g4 g5 g6 g7 s1 s2 s3 s4 in
/-- The second spelling at `(p, q)`. -/
theorem rLayer_apply (nrm : FVec Ideal ⟨1, ![M]⟩ .f32) (p : Fin N) (q : Fin C) :
    rLayer gd sd hi hwc hz hb1 hb2 rw col X b nrm (ix2 p q)
      = (0 + ∑ e ∈ arriving col p, X (ix2 (node hN (rw (ix1 e))) q) * nrm (ix1 e)) + b (ix1 q) := by
  unfold rLayer arriving
  rw [addf_apply, HostLayout.bcast_vec_mat, SegmentSum.segSumRows_apply sd s1 s2 s3 s4, HostLayout.bcast_scalar_mat,
    constant_apply, Ideal.ofBits_zero_f32]
  congr 2
  refine Finset.sum_congr ?_ fun e _ => ?_
  · ext e
    simp only [Finset.mem_filter, Finset.mem_univ, true_and]
    rw [HostLayout.bcast_vec_col]
  · rw [mulf_apply, gather_rows_node hN gd g1 g2 g3 g4 g5 g6 g7, HostLayout.bcast_col_mat,
      HostLayout.bcast_vec_col, HostLayout.bcast_vec_col]

end Layers

/-! ## The two spellings agree -/

/-- THE BRIDGE. The first spelling at width `C'`, read at a column `emb q`, is the second spelling at width `C` read at
    column `q`, when the first's array and bias row restricted to the columns `emb ·` are the second's, the per-node
    factor is nonnegative and finite, and the wrapped destination entry of an edge that arrives at `p` names `p`:
    on those edges the destination factor is the one number `d p`, which distributes over the sum. -/
theorem layer_bridge {C' : ℕ} (hN : 0 < N)
    (gd' : GatherDims ⟨2, ![N, C']⟩ ⟨2, ![M, 1]⟩ ⟨2, ![M, C']⟩) (sd' : ScatterDims ⟨2, ![N, C']⟩ ⟨2, ![M, 1]⟩ ⟨2, ![M, C']⟩)
    (gd : GatherDims ⟨2, ![N, C]⟩ ⟨2, ![M, 1]⟩ ⟨2, ![M, C]⟩) (sd : ScatterDims ⟨2, ![N, C]⟩ ⟨2, ![M, 1]⟩ ⟨2, ![M, C]⟩)
    (gv : GatherDims ⟨1, ![N]⟩ ⟨2, ![M, 1]⟩ ⟨1, ![M]⟩)
    (hv : (⟨1, ![N]⟩ : Shape).BroadcastsInDim ⟨2, ![N, 1]⟩ ![0])
    (hc' : (⟨2, ![N, 1]⟩ : Shape).BroadcastsInDim ⟨2, ![N, C']⟩ ![0, 1])
    (hi hi' : (⟨1, ![M]⟩ : Shape).BroadcastsInDim ⟨2, ![M, 1]⟩ ![0])
    (hwc' : (⟨2, ![M, 1]⟩ : Shape).BroadcastsInDim ⟨2, ![M, C']⟩ ![0, 1])
    (hwc : (⟨2, ![M, 1]⟩ : Shape).BroadcastsInDim ⟨2, ![M, C]⟩ ![0, 1])
    (hz' : (⟨0, ![]⟩ : Shape).BroadcastsInDim ⟨2, ![N, C']⟩ ![])
    (hz : (⟨0, ![]⟩ : Shape).BroadcastsInDim ⟨2, ![N, C]⟩ ![])
    (hb1' : (⟨1, ![C']⟩ : Shape).BroadcastsInDim ⟨2, ![1, C']⟩ ![1])
    (hb2' : (⟨2, ![1, C']⟩ : Shape).BroadcastsInDim ⟨2, ![N, C']⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (g1' : gd'.offsetDims = [1]) (g2' : gd'.collapsedSliceDims = [0]) (g3' : gd'.operandBatchingDims = [])
    (g4' : gd'.startIndicesBatchingDims = []) (g5' : gd'.startIndexMap = [0]) (g6' : gd'.indexVectorDim = 1)
    (g7' : gd'.sliceSizes = ![1, C'])
    (s1' : sd'.updateWindowDims = [1]) (s2' : sd'.insertedWindowDims = [0]) (s3' : sd'.scatterDimsToOperandDims = [0])
    (s4' : sd'.indexVectorDim = 1)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, C])
    (s1 : sd.updateWindowDims = [1]) (s2 : sd.insertedWindowDims = [0]) (s3 : sd.scatterDimsToOperandDims = [0])
    (s4 : sd.indexVectorDim = 1)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (d : FVec Ideal ⟨1, ![N]⟩ .f32) (rw cw col : IVec ⟨1, ![M]⟩ 32) (w : FVec Ideal ⟨1, ![M]⟩ .f32)
    (X' : FVec Ideal ⟨2, ![N, C']⟩ .f32) (b' : FVec Ideal ⟨1, ![C']⟩ .f32)
    (X : FVec Ideal ⟨2, ![N, C]⟩ .f32) (b : FVec Ideal ⟨1, ![C]⟩ .f32)
    (hd : ∀ i, 0 ≤ d i ∧ d i ≠ ⊤)
    (hcw : ∀ (e : Fin M) (p : Fin N), (col (ix1 e)).toInt = (p.val : Int) → node hN (cw (ix1 e)) = p)
    (emb : Fin C → Fin C') (hX : ∀ j q, X' (ix2 j (emb q)) = X (ix2 j q)) (hb : ∀ q, b' (ix1 (emb q)) = b (ix1 q))
    (p : Fin N) (q : Fin C) :
    kLayer gd' sd' hv hc' hi' hwc' hz' hb1' hb2' d rw col w X' b' (ix2 p (emb q))
      = rLayer gd sd hi hwc hz hb1 hb2 rw col X b (coef gv hi d rw cw w) (ix2 p q) := by
  rw [kLayer_apply gd' sd' hv hc' hi' hwc' hz' hb1' hb2' d rw col w X' b' hN g1' g2' g3' g4' g5' g6' g7' s1' s2' s3' s4',
    rLayer_apply gd sd hi hwc hz hb1 hb2 rw col X b hN g1 g2 g3 g4 g5 g6 g7 s1 s2 s3 s4, hb]
  congr 1
  have e1 : ∀ e ∈ arriving col p,
      (d (ix1 (node hN (rw (ix1 e)))) * X' (ix2 (node hN (rw (ix1 e))) (emb q))) * w (ix1 e)
        = X (ix2 (node hN (rw (ix1 e))) q) * (d (ix1 (node hN (rw (ix1 e)))) * w (ix1 e)) := by
    intro e _
    rw [hX, mul_comm (d _) (X _), mul_assoc]
  have e2 : ∀ e ∈ arriving col p,
      X (ix2 (node hN (rw (ix1 e))) q) * coef gv hi d rw cw w (ix1 e)
        = X (ix2 (node hN (rw (ix1 e))) q) * ((d (ix1 (node hN (rw (ix1 e)))) * w (ix1 e)) * d (ix1 (node hN (cw (ix1 e))))) := by
    intro e _
    rw [coef_apply gv hi d rw cw w hN v1 v2 v3 v4 v5 v6 v7]
  rw [Finset.sum_congr rfl e1, Finset.sum_congr rfl e2]
  exact GcnFold.fold_out (arriving col p) (d (ix1 p)) (hd _).1 (hd _).2
    (fun e => X (ix2 (node hN (rw (ix1 e))) q)) (fun e => d (ix1 (node hN (rw (ix1 e)))) * w (ix1 e))
    (fun e => d (ix1 (node hN (cw (ix1 e)))))
    (fun e he => by rw [hcw e p (Finset.mem_filter.mp he).2])

end Cert.GcnHost

end
-- ==== Proof.LibFoldSum.lean ====
/-
  Two facts about sums on a commutative monoid, used to read an output that is accumulated over consecutive grid points.

  A fold that starts at its first point from zero plus that point's share, and at each later point adds the point's share to
  what the point before left, holds after point j zero plus the sum of the shares of points 0 … j. And a sum over the A·B rows
  of an array is the sum over its A blocks of B consecutive rows of each block's sum. Both use only that addition is
  commutative and associative, so they hold on the extended reals with no finiteness.
-/
import Idealize.ShloMosaic.Lib.Pipeline.Value
import Idealize.ShloMosaic.Lib.ValueIdx

noncomputable section

namespace Cert.FoldSum

open Idealize.ShloMosaic Idealize.ShloMosaic.ValueIdx

/-- The fold over the points 0 … j, read at entry d, is zero plus the sum of the points' shares at d. -/
theorem accAt_sum {M : Type*} [AddCommMonoid M] {N c : ℕ}
    (a : (n : ℕ) → n < N → ((⟨1, ![c]⟩ : Shape).Idx → M))
    (g : (n : ℕ) → n < N → ((⟨1, ![c]⟩ : Shape).Idx → M) → ((⟨1, ![c]⟩ : Shape).Idx → M))
    (P : (n : ℕ) → n < N → Fin c → M)
    (ha : ∀ n h d, a n h (ix1 d) = 0 + P n h d)
    (hg : ∀ n h acc d, g n h acc (ix1 d) = acc (ix1 d) + P n h d)
    (j : ℕ) (h : 0 + j < N) (d : Fin c) :
    Pipeline.accAt a g 0 j h (ix1 d) = 0 + ∑ n : Fin (j + 1), P n.val (by have := n.isLt; omega) d := by
  have hP : ∀ (n n' : ℕ) (hn : n < N) (hn' : n' < N), n = n' → P n hn d = P n' hn' d := by
    intro n n' hn hn' e; subst e; rfl
  induction j with
  | zero =>
    rw [Pipeline.accAt_zero, ha, Fin.sum_univ_one]
    exact congrArg (0 + ·) (hP _ _ _ _ rfl)
  | succ j ih =>
    rw [Pipeline.accAt_succ, hg, ih (by omega), add_assoc]
    conv_rhs => rw [Fin.sum_univ_castSucc]
    refine congrArg (0 + ·) (congrArg₂ (· + ·) (Finset.sum_congr rfl fun n _ => hP _ _ _ _ rfl) (hP _ _ _ _ ?_))
    simp

/-- A sum over C = A·B rows is the sum over the A blocks of B consecutive rows of each block's sum. -/
theorem sum_blocks {M : Type*} [AddCommMonoid M] {A B C : ℕ} (hC : C = A * B) (f : Fin C → M) :
    ∑ i : Fin C, f i = ∑ n : Fin A, ∑ r : Fin B, f ⟨B * n.val + r.val, by
      subst hC
      have h1 := n.isLt
      have h2 := r.isLt
      calc B * n.val + r.val < B * n.val + B := by omega
        _ = B * (n.val + 1) := by ring
        _ ≤ B * A := Nat.mul_le_mul_left _ h1
        _ = A * B := Nat.mul_comm _ _⟩ := by
  subst hC
  rw [← Equiv.sum_comp finProdFinEquiv f, Fintype.sum_prod_type]
  refine Finset.sum_congr rfl fun n _ => Finset.sum_congr rfl fun r _ => congrArg f (Fin.ext ?_)
  simp only [finProdFinEquiv_apply_val]
  omega

end Cert.FoldSum

end
-- ==== Proof.LibMeanAffine.lean ====
import Mathlib.Data.EReal.Inv
import Mathlib.Algebra.BigOperators.Group.Finset.Basic
import Idealize.ShloMosaic.PureOps.Ideal

/-!
# The mean of affine images is the affine image of the mean

A graph layer averages, over the finite nonempty set `H` of edges arriving at a node, the messages of their
source nodes.  Applying the affine map `row ↦ (∑ l, row l · W l) + b` to every message before averaging gives
the same value as averaging the raw rows and applying the affine map once afterwards:

  `(∑_{e∈H} ((∑_l x e l · W l) + b)) / |H| = (∑_l ((∑_{e∈H} x e l) / |H|) · W l) + b`,

because `∑_{e∈H} ((∑_l x e l · W l) + b) = (∑_l (∑_{e∈H} x e l) · W l) + |H| · b` and `|H| ≥ 1`, so that
`max(|H|, 1) = |H| ≠ 0`.  On the extended reals distributivity fails at the infinities, so the data enter as
coercions of real numbers; every expression is then the coercion of a real expression and the identity is
proved over `ℝ`.  The quotient is the total quotient `Ideal.div`, which off a zero divisor is multiplication
by the inverse.
-/

noncomputable section

namespace Cert.MeanAffine

open Idealize.ShloMosaic

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Zero plus a sum of ones over `H` is the cardinality of `H`. -/
theorem count_eq {ε : Type*} (H : Finset ε) :
    (0 : EReal) + ∑ _e ∈ H, (1 : EReal) = ((H.card : ℝ) : EReal) := by
  rw [zero_add, ← EReal.coe_one, ← coe_sum, Finset.sum_const, nsmul_eq_mul, mul_one]

/-- A nonempty set has at least one element, so clamping its cardinality below by one changes nothing. -/
theorem max_count {ε : Type*} {H : Finset ε} (hH : H.Nonempty) :
    max ((H.card : ℝ) : EReal) 1 = ((H.card : ℝ) : EReal) := by
  apply max_eq_left
  have h1 : (1 : ℝ) ≤ (H.card : ℝ) := by exact_mod_cast Finset.one_le_card.mpr hH
  exact_mod_cast h1

/-- A family of extended reals none of which is infinite is the coercion of a family of reals. -/
theorem exists_real {ι : Type*} (f : ι → EReal) (h : ∀ i, f i ≠ ⊤ ∧ f i ≠ ⊥) :
    ∃ r : ι → ℝ, ∀ i, f i = (r i : EReal) :=
  ⟨fun i => (f i).toReal, fun i => (EReal.coe_toReal (h i).1 (h i).2).symm⟩

/-- The identity over the reals: dividing the sum of the affine images by `c = |H|` is the affine image of the
    sums divided by `c`. -/
theorem real_mean_affine {ε : Type*} {n : ℕ} (H : Finset ε) (hc : (H.card : ℝ) ≠ 0)
    (x : ε → Fin n → ℝ) (W : Fin n → ℝ) (b : ℝ) :
    (∑ e ∈ H, ((∑ l : Fin n, x e l * W l) + b)) * (1 / (H.card : ℝ))
      = (∑ l : Fin n, (∑ e ∈ H, x e l) * (1 / (H.card : ℝ)) * W l) + b := by
  rw [Finset.sum_add_distrib, Finset.sum_const, nsmul_eq_mul, Finset.sum_comm, add_mul]
  congr 1
  · rw [Finset.sum_mul]
    refine Finset.sum_congr rfl fun l _ => ?_
    rw [← Finset.sum_mul]
    ring
  · field_simp

/-- The mean over a nonempty edge set of the affine images of real rows equals the affine image of the
    mean row, with the total quotient and the count clamped below by one. -/
theorem mean_affine {ε : Type*} {n : ℕ} (H : Finset ε) (hH : H.Nonempty) (x : ε → Fin n → ℝ)
    (W : Fin n → ℝ) (b : ℝ) :
    Ideal.div ((0 : EReal) + ∑ e ∈ H, ((∑ l : Fin n, (x e l : EReal) * (W l : EReal)) + (b : EReal)))
        (max ((0 : EReal) + ∑ _e ∈ H, (1 : EReal)) 1)
      = (∑ l : Fin n, Ideal.div ((0 : EReal) + ∑ e ∈ H, (x e l : EReal))
          (max ((0 : EReal) + ∑ _e ∈ H, (1 : EReal)) 1) * (W l : EReal)) + (b : EReal) := by
  have hc : (H.card : ℝ) ≠ 0 := by exact_mod_cast (Finset.card_pos.mpr hH).ne'
  rw [count_eq, max_count hH]
  simp only [Ideal.div_coe hc, zero_add, ← EReal.coe_mul, ← coe_sum, ← EReal.coe_add]
  rw [real_mean_affine H hc]

/-- The same identity with the edge set given as the edges of a finite type that satisfy a predicate. -/
theorem mean_affine_filter {ε : Type*} {n : ℕ} [Fintype ε] [DecidableEq ε] (P : ε → Prop) [DecidablePred P]
    (hP : (Finset.univ.filter P).Nonempty) (x : ε → Fin n → ℝ) (W : Fin n → ℝ) (b : ℝ) :
    Ideal.div ((0 : EReal) + ∑ e ∈ Finset.univ.filter P,
          ((∑ l : Fin n, (x e l : EReal) * (W l : EReal)) + (b : EReal)))
        (max ((0 : EReal) + ∑ _e ∈ Finset.univ.filter P, (1 : EReal)) 1)
      = (∑ l : Fin n, Ideal.div ((0 : EReal) + ∑ e ∈ Finset.univ.filter P, (x e l : EReal))
          (max ((0 : EReal) + ∑ _e ∈ Finset.univ.filter P, (1 : EReal)) 1) * (W l : EReal)) + (b : EReal) :=
  mean_affine (Finset.univ.filter P) hP x W b

end Cert.MeanAffine
-- ==== Proof.LibGcnStats.lean ====
/-
  The algebra on the extended reals that joins two ways of writing a normalised graph convolution followed by
  batch statistics.

  First half. With `c = 1/√deg` the reciprocal square root of a node's degree `deg = 1 + (number of arriving edges)`,
  one program computes `c · (∑ₑ t e · d e + h · c) + b` and the other `∑ₑ t e · (d e · c) + h · (1/deg) + b`. They agree
  because `c` is a nonnegative finite number — for such a factor multiplication distributes over any sum of extended
  reals — and `c · c = 1/deg`. No finiteness of the messages `t e` or of `h` is needed.

  Second half. The mean of `N = A·B` numbers summed block by block is the mean of all of them, and the one-pass
  variance `max (E[y²] − μ², 0)` equals the two-pass variance `E[(y − μ)²]` when every `y` is a real number: both
  are coercions of real expressions, `∑ (y − μ)² = ∑ y² − N μ²` for `μ = (∑ y)/N`, and the common value is nonnegative.
-/
import Idealize.ShloMosaic.PureOps.Ideal
import Idealize.ShloMosaic.PureOps.Ideal.Laws
import proofs.«159187_j41918880809282_2_alg».proof.Proof.LibFoldSum
import proofs.«159187_j41918880809282_2_alg».proof.Proof.LibMeanAffine

noncomputable section

namespace Cert.GcnStats

open Idealize.ShloMosaic

/-! ### Extended reals that are real numbers -/

/-- An extended real that is the coercion of a real number. -/
def IsReal (a : EReal) : Prop := ∃ r : ℝ, a = (r : EReal)

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.sub {a b : EReal} (ha : IsReal a) (hb : IsReal b) : IsReal (a - b) := by
  obtain ⟨x, rfl⟩ := ha
  obtain ⟨y, rfl⟩ := hb
  exact ⟨x - y, (EReal.coe_sub x y).symm⟩

theorem isReal_zero : IsReal 0 := ⟨0, EReal.coe_zero.symm⟩

theorem isReal_one : IsReal 1 := ⟨1, EReal.coe_one.symm⟩

theorem isReal_coe (r : ℝ) : IsReal (r : EReal) := ⟨r, rfl⟩

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-! ### Two literals -/

/-- The pattern of `1.0` denotes the number one. -/
theorem ofBits_one : Ideal.ofBits .f32 0x3F800000#32 = (1 : EReal) := by
  simp [Ideal.ofBits, Ideal.ieee, -EReal.coe_mul]; norm_num

/-- The pattern of `100000.0`: exponent field 143, significand `2^23 + 0x435000 = 12800000`, and
    `12800000 · 2^(143 − 127 − 23) = 100000`. -/
theorem ofBits_1e5 : Ideal.ofBits .f32 0x47C35000#32 = ((100000 : ℝ) : EReal) := by
  simp [Ideal.ofBits, Ideal.ieee, -EReal.coe_mul]; norm_num

/-! ### The degree normalisation -/

/-- The degree `1 + (number of arriving edges)` is a positive real, so its reciprocal square root `c` is a nonnegative
    real number, `1/deg` is a real number, and `c · c = 1/deg`. -/
theorem deg_facts {ι : Type*} (S : Finset ι) (deg : EReal) (hdeg : deg = (0 + ∑ _e ∈ S, (1 : EReal)) + 1) :
    0 ≤ Ideal.rsqrt deg ∧ Ideal.rsqrt deg ≠ ⊤ ∧ IsReal (Ideal.rsqrt deg) ∧ IsReal (Ideal.div 1 deg) ∧
      Ideal.rsqrt deg * Ideal.rsqrt deg = Ideal.div 1 deg := by
  have hd : deg = (((S.card : ℝ) + 1 : ℝ) : EReal) := by
    rw [hdeg, Cert.MeanAffine.count_eq, EReal.coe_add, EReal.coe_one]
  have hpos : (0 : ℝ) < (S.card : ℝ) + 1 := by positivity
  have hrs : Ideal.rsqrt deg = (((Real.sqrt ((S.card : ℝ) + 1))⁻¹ : ℝ) : EReal) := by
    rw [hd, Ideal.rsqrt_coe, if_neg (not_lt.mpr hpos.le), if_neg hpos.ne']
  have hdv : Ideal.div 1 deg = ((1 / ((S.card : ℝ) + 1) : ℝ) : EReal) := by
    rw [hd, Ideal.div_coe hpos.ne', one_mul]
  refine ⟨?_, ?_, ?_, ?_, ?_⟩
  · rw [hrs]
    exact_mod_cast inv_nonneg.mpr (Real.sqrt_nonneg _)
  · rw [hrs]
    exact EReal.coe_ne_top _
  · rw [hrs]
    exact ⟨_, rfl⟩
  · rw [hdv]
    exact ⟨_, rfl⟩
  · rw [hrs, hdv, ← EReal.coe_mul]
    congr 1
    rw [← mul_inv, Real.mul_self_sqrt hpos.le, one_div]

/-- A nonnegative finite factor distributes over a finite sum of extended reals. -/
theorem mul_sum {ι : Type*} (s : Finset ι) (c : EReal) (h0 : 0 ≤ c) (ht : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 ht, ih]

/-- One entry of the layer: the factor `c`, common to the edges arriving at the node, taken into the sum over those
    edges and into the self term, where `c · c = r`. -/
theorem y_entry {ι : Type*} (S : Finset ι) (c r : EReal) (h0 : 0 ≤ c) (ht : c ≠ ⊤) (hr : c * c = r)
    (t dS dG : ι → EReal) (hG : ∀ e ∈ S, dG e = c) (hp bq : EReal) :
    c * ((0 + ∑ e ∈ S, t e * dS e) + hp * c) + bq
      = ((0 + ∑ e ∈ S, t e * (dS e * dG e)) + hp * r) + bq := by
  rw [EReal.left_distrib_of_nonneg_of_ne_top h0 ht, zero_add, zero_add, mul_sum S c h0 ht, ← hr,
    mul_left_comm c hp c]
  congr 2
  refine Finset.sum_congr rfl fun e he => ?_
  rw [hG e he, mul_left_comm, mul_comm c (dS e)]

/-! ### Batch statistics from per-block partial sums -/

/-- A sum over the `N = A·B` rows is the sum over the `A` blocks of `B` consecutive rows of each block's sum, the row
    `r` of block `t` being row `B·t + r`. -/
theorem sum_by_blocks {A B N : ℕ} (hN : N = A * B) (blk : Fin A → Fin B → Fin N)
    (hblk : ∀ t r, (blk t r).val = B * t.val + r.val) (f : Fin N → EReal) :
    ∑ p : Fin N, f p = ∑ t : Fin A, ∑ r : Fin B, f (blk t r) := by
  rw [Cert.FoldSum.sum_blocks hN f]
  refine Finset.sum_congr rfl fun t _ => Finset.sum_congr rfl fun r _ => congrArg f (Fin.ext ?_)
  exact (hblk t r).symm

/-- The mean taken from per-block partial sums is the mean over all rows. -/
theorem mean_blocks {A B N : ℕ} (hN : N = A * B) (blk : Fin A → Fin B → Fin N)
    (hblk : ∀ t r, (blk t r).val = B * t.val + r.val) (y : Fin N → EReal) (n : EReal) :
    Ideal.div (0 + ∑ t : Fin A, (0 + ∑ r : Fin B, y (blk t r))) n = Ideal.div (0 + ∑ p : Fin N, y p) n := by
  rw [sum_by_blocks hN blk hblk y]
  simp only [zero_add]

/-- Over the reals, with `μ = (∑ z)/N`: `(∑ z²)/N − μ² = (∑ (z − μ)²)/N`. -/
theorem real_var {N : ℕ} (hpos : 0 < N) (z : Fin N → ℝ) (m : ℝ) (hm : m = (∑ p : Fin N, z p) * (1 / (N : ℝ))) :
    (∑ p : Fin N, z p * z p) * (1 / (N : ℝ)) - m * m = (∑ p : Fin N, (z p - m) * (z p - m)) * (1 / (N : ℝ)) := by
  have hN : (N : ℝ) ≠ 0 := by exact_mod_cast hpos.ne'
  have hs : ∑ p : Fin N, z p = (N : ℝ) * m := by rw [hm]; field_simp
  have h : ∀ p, (z p - m) * (z p - m) = z p * z p - 2 * m * z p + m * m := fun p => by ring
  simp only [h, Finset.sum_add_distrib, Finset.sum_sub_distrib, ← Finset.mul_sum, Finset.sum_const,
    Finset.card_univ, Fintype.card_fin, nsmul_eq_mul]
  rw [hs]
  field_simp
  ring

/-- The one-pass variance from per-block partial sums of squares, clamped below by zero, is the two-pass variance,
    when every entry is a real number. -/
theorem var_onepass {A B N : ℕ} (hN : N = A * B) (hpos : 0 < N) (blk : Fin A → Fin B → Fin N)
    (hblk : ∀ t r, (blk t r).val = B * t.val + r.val) (y : Fin N → EReal) (hy : ∀ p, IsReal (y p))
    (n : EReal) (hn : n = ((N : ℝ) : EReal)) (mu : EReal) (hmu : mu = Ideal.div (0 + ∑ p : Fin N, y p) n) :
    max (Ideal.div (0 + ∑ t : Fin A, (0 + ∑ r : Fin B, y (blk t r) * y (blk t r))) n - mu * mu) 0
      = Ideal.div (0 + ∑ p : Fin N, (y p - mu) * (y p - mu)) n := by
  have hNr : (N : ℝ) ≠ 0 := by exact_mod_cast hpos.ne'
  choose z hz using hy
  have hmu' : mu = (((∑ p : Fin N, z p) * (1 / (N : ℝ)) : ℝ) : EReal) := by
    rw [hmu, hn, Ideal.div_coe hNr, zero_add]
    simp only [hz, ← Cert.MeanAffine.coe_sum, ← EReal.coe_mul]
  have hL : (0 + ∑ t : Fin A, (0 + ∑ r : Fin B, y (blk t r) * y (blk t r)))
      = ((∑ p : Fin N, z p * z p : ℝ) : EReal) := by
    simp only [zero_add]
    rw [← sum_by_blocks hN blk hblk (fun p => y p * y p)]
    simp only [hz, ← EReal.coe_mul, ← Cert.MeanAffine.coe_sum]
  rw [hL, hn, Ideal.div_coe hNr, Ideal.div_coe hNr, hmu', zero_add]
  simp only [hz, ← EReal.coe_mul, ← EReal.coe_sub, ← Cert.MeanAffine.coe_sum]
  rw [real_var hpos z _ rfl]
  apply max_eq_left
  have h0 : (0 : ℝ) ≤ (∑ p : Fin N, (z p - (∑ p : Fin N, z p) * (1 / (N : ℝ))) * (z p - (∑ p : Fin N, z p) * (1 / (N : ℝ))))
      * (1 / (N : ℝ)) :=
    mul_nonneg (Finset.sum_nonneg fun p _ => mul_self_nonneg _) (by positivity)
  exact_mod_cast h0

/-- A real number divided by a nonzero real number is a real number. -/
theorem isReal_div_coe {a : EReal} (ha : IsReal a) {N : ℝ} (hN : N ≠ 0) : IsReal (Ideal.div a (N : EReal)) := by
  rw [Ideal.div_coe hN]
  exact ha.mul (isReal_coe _)

/-- The reciprocal square root of a positive real number is a real number. -/
theorem isReal_rsqrt_pos {a : EReal} (ha : IsReal a) (hpos : 0 < a) : IsReal (Ideal.rsqrt a) := by
  obtain ⟨x, rfl⟩ := ha
  have hx : 0 < x := by exact_mod_cast hpos
  rw [Ideal.rsqrt_coe, if_neg (not_lt.mpr hx.le), if_neg hx.ne']
  exact ⟨_, rfl⟩

end Cert.GcnStats

end
-- ==== Proof.RefRead.lean ====
/-
  The reference program read at an index.

  The reference computes, for a graph with 100000 nodes and 600000 edges (row 0 of the edge list the sources, row 1
  the destinations), feature rows `h = x W`, the degree `deg p = (number of edges arriving at p) + 1`, its reciprocal
  square root `dinv`, the layer

      y (p, q) = ∑ over the edges e arriving at p of  h (src e, q) · (dinv (src e) · dinv (dst e))  +  h (p, q) · (1 / deg p)  +  b q ,

  the per-column mean and two-pass variance of `y` over the 100000 rows, and the output
  `max (max ((y − mean) · rsqrt (var + ε) · γ + β, 0) + x, 0)`. Each statement below reads one stage of the program at
  an index: pointwise stages read their operands at the same index, layout stages at a computed index, a sum over an
  axis as a finite sum, an accumulating scatter as a sum over the edges whose destination entry is the row, and a
  gather as the row its (wrapped, clamped) index entry names.
-/
import proofs.«159187_j41918880809282_2_alg».proof.Proof.Gen.ReferenceIdeal.Read
import proofs.«159187_j41918880809282_2_alg».proof.Proof.LibGcnHost
import proofs.«159187_j41918880809282_2_alg».proof.Proof.LibGcnStats

noncomputable section

namespace Cert.RefRead

open Cert.ReferenceIdeal Cert.ReferenceIdeal.Read Idealize.ShloMosaic Idealize.ShloMosaic.ValueIdx

/-- The node features. -/
abbrev A2 := (⟨S100000x128, .f32⟩ : BufTy).Contents (Elt Ideal)
/-- The edge list. -/
abbrev EI := (⟨S2x600000, .i32⟩ : BufTy).Contents (Elt Ideal)
/-- The weight matrix. -/
abbrev WW := (⟨S128x128, .f32⟩ : BufTy).Contents (Elt Ideal)
/-- A vector over the 128 columns: the bias, the scale and the shift. -/
abbrev VV := (⟨S128, .f32⟩ : BufTy).Contents (Elt Ideal)

theorem hN : 0 < 100000 := by decide

/-- The feature rows times the weight matrix. -/
def hs (x0 : A2) (x2 : WW) (p : Fin 100000) (q : Fin 128) : EReal := ∑ k : Fin 128, x0 (ix2 p k) * x2 (ix2 k q)

/-- The edges arriving at node `p`: the destination entry, read signed, is `p`. -/
def arr (E : EI) (p : Fin 100000) : Finset (Fin 600000) :=
  Cert.GcnHost.arriving (N := 100000) (val_main_v3 (F := Ideal) E) p

/-- The node the (wrapped) source entry of edge `e` names to a gather. -/
def srcNode (E : EI) (e : Fin 600000) : Fin 100000 :=
  Cert.GcnHost.node hN (val_main_v32 (F := Ideal) E (ix2 e (0 : Fin 1)))

/-- The node the (wrapped) destination entry of edge `e` names to a gather. -/
def dstNode (E : EI) (e : Fin 600000) : Fin 100000 :=
  Cert.GcnHost.node hN (val_main_v24 (F := Ideal) E (ix2 e (0 : Fin 1)))

/-- The reciprocal square root of the degree. -/
def dinv (E : EI) (p : Fin 100000) : EReal := val_main_v11 (F := Ideal) E (ix1 p)

/-- The degree. -/
def deg (E : EI) (p : Fin 100000) : EReal := val_main_v10 (F := Ideal) E (ix1 p)

/-- The layer's output before the statistics. -/
def yR (x0 : A2) (E : EI) (x2 : WW) (x3 : VV) (p : Fin 100000) (q : Fin 128) : EReal :=
  val_main_v48 (F := Ideal) x0 E x2 x3 (ix2 p q)

/-- The per-column mean. -/
def meanR (x0 : A2) (E : EI) (x2 : WW) (x3 : VV) (q : Fin 128) : EReal := val_main_v51 (F := Ideal) x0 E x2 x3 (ix1 q)

/-- The per-column two-pass variance. -/
def varR (x0 : A2) (E : EI) (x2 : WW) (x3 : VV) (q : Fin 128) : EReal := val_main_v58 (F := Ideal) x0 E x2 x3 (ix1 q)

/-! ### Index columns read at an edge -/

theorem v7_at (E : EI) (e : Fin 600000) :
    val_main_v7 (F := Ideal) E (ix2 e (0 : Fin 1)) = val_main_v3 (F := Ideal) E (ix1 e) := by
  rw [val_main_v7_apply]
  exact congrArg _ (funext fun a => Fin.ext (by match a with | ⟨0, _⟩ => rfl))

theorem v38_at (E : EI) (e : Fin 600000) :
    val_main_v38 (F := Ideal) E (ix2 e (0 : Fin 1)) = val_main_v3 (F := Ideal) E (ix1 e) := by
  rw [val_main_v38_apply]
  exact congrArg _ (funext fun a => Fin.ext (by match a with | ⟨0, _⟩ => rfl))

theorem v24_at (E : EI) (e : Fin 600000) :
    val_main_v24 (F := Ideal) E (ix2 e (0 : Fin 1)) = val_main_v23 (F := Ideal) E (ix1 e) := by
  rw [val_main_v24_apply]
  exact congrArg _ (funext fun a => Fin.ext (by match a with | ⟨0, _⟩ => rfl))

/-! ### The degree and its reciprocal square root -/

/-- The degree of `p` is one more than the number of edges arriving at `p`. -/
theorem deg_eq (E : EI) (p : Fin 100000) : deg E p = (0 + ∑ _e ∈ arr E p, (1 : EReal)) + 1 := by
  unfold deg arr Cert.GcnHost.arriving
  rw [val_main_v10_apply, Ideal.addf_def]
  unfold val_main_v8
  rw [Cert.SegmentSum.segSumVec_apply scatter_S100000_S600000x1_S600000_n_0_0_1 rfl rfl rfl rfl,
    val_main_v6_apply, val_main_cst_0_apply, val_main_v9_apply, val_main_cst_1_apply]
  simp only [Ideal.ofBits_def, Ideal.ofBits_zero_f32, Cert.GcnStats.ofBits_one, v7_at, val_main_v5_apply,
    val_main_cst_apply]

theorem dinv_eq (E : EI) (p : Fin 100000) : dinv E p = Ideal.rsqrt (deg E p) := by
  unfold dinv deg
  rw [val_main_v11_apply, Ideal.hostUnary_rsqrt_def]

/-! ### The dense product -/

theorem h_apply (x0 : A2) (x2 : WW) (p : Fin 100000) (q : Fin 128) :
    val_main_v4 (F := Ideal) x0 x2 (ix2 p q) = hs x0 x2 p q := by
  rw [val_main_v4_apply]
  unfold hs
  refine Finset.sum_congr rfl fun k _ => ?_
  have e1 : lidx_main_v4 (ix2 p q) k = ix2 p k := funext fun a => Fin.ext (by match a with | ⟨0, _⟩ => rfl | ⟨1, _⟩ => rfl)
  have e2 : ridx_main_v4 (ix2 p q) k = ix2 k q := funext fun a => Fin.ext (by match a with | ⟨0, _⟩ => rfl | ⟨1, _⟩ => rfl)
  rw [e1, e2]

/-! ### The segment sum -/

/-- The accumulating scatter into the zero array by the destination column, read at `(p, q)`: zero plus the sum of
    the updates of the edges arriving at `p`. -/
theorem scat_gen (E : EI) (upd : (⟨S600000x128, .f32⟩ : BufTy).Contents (Elt Ideal)) (p : Fin 100000) (q : Fin 128) :
    Host.scatterAdd (F := Ideal) (φ := .f32) scatter_S100000x128_S600000x1_S600000x128_1_0_0_1 (val_main_v37 (F := Ideal))
        (val_main_v38 (F := Ideal) E) upd (ix2 p q)
      = 0 + ∑ e ∈ arr E p, upd (ix2 e q) := by
  unfold arr Cert.GcnHost.arriving
  rw [Cert.SegmentSum.segSumRows_apply scatter_S100000x128_S600000x1_S600000x128_1_0_0_1 rfl rfl rfl rfl,
    val_main_v37_apply, val_main_cst_7_apply, Ideal.ofBits_def, Ideal.ofBits_zero_f32]
  refine congrArg (0 + ·) (Finset.sum_congr ?_ fun e _ => rfl)
  ext e
  simp only [Finset.mem_filter, Finset.mem_univ, true_and]
  rw [v38_at]

/-- The segment sum of the rows of any array `H` gathered along the edges' sources. -/
theorem scat_apply (E : EI) (H : A2) (p : Fin 100000) (q : Fin 128) :
    Host.scatterAdd (F := Ideal) (φ := .f32) scatter_S100000x128_S600000x1_S600000x128_1_0_0_1 (val_main_v37 (F := Ideal))
        (val_main_v38 (F := Ideal) E)
        (Host.gather gather_S100000x128_S600000x1_S600000x128_1_0_n_n_0_1_1128 H (val_main_v32 (F := Ideal) E)) (ix2 p q)
      = 0 + ∑ e ∈ arr E p, H (ix2 (srcNode E e) q) := by
  rw [scat_gen]
  refine congrArg (0 + ·) (Finset.sum_congr rfl fun e _ => ?_)
  exact Cert.GcnHost.gather_rows_node hN gather_S100000x128_S600000x1_S600000x128_1_0_n_n_0_1_1128
    rfl rfl rfl rfl rfl rfl rfl H (val_main_v32 (F := Ideal) E) e q

/-! ### The layer -/

/-- One edge's message: the source's feature row times the product of the two degree factors. -/
theorem v36_at (x0 : A2) (E : EI) (x2 : WW) (e : Fin 600000) (q : Fin 128) :
    val_main_v36 (F := Ideal) x0 E x2 (ix2 e q)
      = hs x0 x2 (srcNode E e) q * (dinv E (srcNode E e) * dinv E (dstNode E e)) := by
  have i35 : idx_main_v34 (idx_main_v35 (ix2 e q)) = ix1 e := funext fun a => Fin.ext (by match a with | ⟨0, _⟩ => rfl)
  rw [val_main_v36_apply, val_main_v35_apply, val_main_v34_apply, i35, val_main_v26_apply]
  unfold val_main_v33 val_main_v18 val_main_v25
  rw [Cert.GcnHost.gather_rows_node hN gather_S100000x128_S600000x1_S600000x128_1_0_n_n_0_1_1128 rfl rfl rfl rfl rfl rfl rfl,
    Cert.GcnHost.gather_vec_node hN gather_S100000_S600000x1_S600000_n_0_n_n_0_1_1 rfl rfl rfl rfl rfl rfl rfl,
    Cert.GcnHost.gather_vec_node hN gather_S100000_S600000x1_S600000_n_0_n_n_0_1_1 rfl rfl rfl rfl rfl rfl rfl,
    h_apply]
  rfl

theorem y_apply (x0 : A2) (E : EI) (x2 : WW) (x3 : VV) (p : Fin 100000) (q : Fin 128) :
    yR x0 E x2 x3 p q
      = ((0 + ∑ e ∈ arr E p, hs x0 x2 (srcNode E e) q * (dinv E (srcNode E e) * dinv E (dstNode E e)))
          + hs x0 x2 p q * Ideal.div 1 (deg E p)) + x3 (ix1 q) := by
  have i47 : idx_main_v46 (idx_main_v47 (ix2 p q)) = ix1 q := funext fun a => Fin.ext (by match a with | ⟨0, _⟩ => rfl)
  have i43 : idx_main_v42 (idx_main_v43 (ix2 p q)) = ix1 p := funext fun a => Fin.ext (by match a with | ⟨0, _⟩ => rfl)
  unfold yR deg
  rw [val_main_v48_apply, val_main_v45_apply, val_main_v47_apply, val_main_v46_apply, i47,
    val_main_v44_apply, val_main_v43_apply, val_main_v42_apply, i43, val_main_v41_apply, val_main_v40_apply,
    val_main_cst_8_apply, h_apply]
  unfold val_main_v39
  rw [scat_gen, Finset.sum_congr rfl (fun e _ => v36_at x0 E x2 e q)]
  simp only [Ideal.addf_def, Ideal.mulf_def, Ideal.hostDivf_def, Ideal.ofBits_def, Cert.GcnStats.ofBits_one]

/-- The wrapped destination entry of an edge arriving at `p` names `p`. -/
theorem dstNode_eq (E : EI) (p : Fin 100000) (e : Fin 600000) (he : e ∈ arr E p) : dstNode E e = p := by
  have h : (val_main_v3 (F := Ideal) E (ix1 e)).toInt = (p.val : Int) := (Finset.mem_filter.mp he).2
  unfold dstNode
  rw [v24_at]
  exact Cert.GcnHost.node_wrap hN 100000#32 Facts₀.bcast_S_S600000 (val_main_v3 (F := Ideal) E) e p h

/-! ### The statistics -/

theorem mean_apply (x0 : A2) (E : EI) (x2 : WW) (x3 : VV) (q : Fin 128) :
    meanR x0 E x2 x3 q
      = Ideal.div (0 + ∑ p : Fin 100000, yR x0 E x2 x3 p q) (Ideal.ofBits .f32 0x47C35000#32) := by
  unfold meanR yR
  rw [val_main_v51_apply, val_main_v49_apply, val_main_cst_9_apply, val_main_v50_apply, val_main_cst_10_apply]
  have hk : ∀ k : Fin 100000, val_main_v48 (F := Ideal) x0 E x2 x3 (idx_main_v49 (ix1 q) k)
      = val_main_v48 (F := Ideal) x0 E x2 x3 (ix2 k q) := fun k =>
    congrArg _ (funext fun a => Fin.ext (by match a with | ⟨0, _⟩ => rfl | ⟨1, _⟩ => rfl))
  rw [Finset.sum_congr rfl (fun k _ => hk k)]
  simp only [Ideal.hostDivf_def, Ideal.ofBits_def, Ideal.ofBits_zero_f32]

theorem var_apply (x0 : A2) (E : EI) (x2 : WW) (x3 : VV) (q : Fin 128) :
    varR x0 E x2 x3 q
      = Ideal.div (0 + ∑ p : Fin 100000, (yR x0 E x2 x3 p q - meanR x0 E x2 x3 q) * (yR x0 E x2 x3 p q - meanR x0 E x2 x3 q))
          (Ideal.ofBits .f32 0x47C35000#32) := by
  unfold varR
  rw [val_main_v58_apply, val_main_v56_apply, val_main_cst_11_apply, val_main_v57_apply, val_main_cst_12_apply]
  have hk : ∀ k : Fin 100000, val_main_v55 (F := Ideal) x0 E x2 x3 (idx_main_v56 (ix1 q) k)
      = (yR x0 E x2 x3 k q - meanR x0 E x2 x3 q) * (yR x0 E x2 x3 k q - meanR x0 E x2 x3 q) := fun k => by
    have i56 : idx_main_v56 (ix1 q) k = ix2 k q := funext fun a => Fin.ext (by match a with | ⟨0, _⟩ => rfl | ⟨1, _⟩ => rfl)
    have i53 : idx_main_v52 (idx_main_v53 (ix2 k q)) = ix1 q := funext fun a => Fin.ext (by match a with | ⟨0, _⟩ => rfl)
    rw [i56, val_main_v55_apply, val_main_v54_apply, val_main_v53_apply, val_main_v52_apply, i53]
    rfl
  rw [Finset.sum_congr rfl (fun k _ => hk k)]
  simp only [Ideal.hostDivf_def, Ideal.ofBits_def, Ideal.ofBits_zero_f32]

/-! ### The output -/

theorem out_apply (x0 : A2) (E : EI) (x2 : WW) (x3 x4 x5 : VV) (p : Fin 100000) (q : Fin 128) :
    val_main_v76 (F := Ideal) x0 E x2 x3 x4 x5 (ix2 p q)
      = max (max ((yR x0 E x2 x3 p q - meanR x0 E x2 x3 q)
            * Ideal.rsqrt (varR x0 E x2 x3 q + Ideal.ofBits .f32 0x3727C5AC#32) * x4 (ix1 q) + x5 (ix1 q)) 0
          + x0 (ix2 p q)) 0 := by
  have i60 : idx_main_v59 (idx_main_v60 (ix2 p q)) = ix1 q := funext fun a => Fin.ext (by match a with | ⟨0, _⟩ => rfl)
  have i66 : idx_main_v65 (idx_main_v66 (ix2 p q)) = ix1 q := funext fun a => Fin.ext (by match a with | ⟨0, _⟩ => rfl)
  have i69 : idx_main_v68 (idx_main_v69 (ix2 p q)) = ix1 q := funext fun a => Fin.ext (by match a with | ⟨0, _⟩ => rfl)
  have i72 : idx_main_v71 (idx_main_v72 (ix2 p q)) = ix1 q := funext fun a => Fin.ext (by match a with | ⟨0, _⟩ => rfl)
  rw [val_main_v76_apply, val_main_call1_v0_apply, val_main_call1_cst_apply, val_main_v75_apply, val_main_v74_apply,
    val_main_call0_v0_apply, val_main_call0_cst_apply, val_main_v73_apply, val_main_v72_apply, val_main_v71_apply, i72,
    val_main_v70_apply, val_main_v69_apply, val_main_v68_apply, i69, val_main_v67_apply, val_main_v66_apply,
    val_main_v65_apply, i66, val_main_v64_apply, val_main_v63_apply, val_main_v62_apply, val_main_cst_13_apply,
    val_main_v61_apply, val_main_v60_apply, val_main_v59_apply, i60]
  simp only [Ideal.addf_def, Ideal.mulf_def, Ideal.subf_def, Ideal.maximumf_def, Ideal.hostUnary_rsqrt_def,
    Ideal.ofBits_def, Ideal.ofBits_zero_f32]
  rfl

end Cert.RefRead

end
-- ==== Proof.KY.lean ====
import proofs.«159187_j41918880809282_2_alg».proof.Proof.KChain
import proofs.«159187_j41918880809282_2_alg».proof.Proof.Region0
import proofs.«159187_j41918880809282_2_alg».proof.Proof.Region1
import proofs.«159187_j41918880809282_2_alg».proof.Proof.RefRead
import proofs.«159187_j41918880809282_2_alg».proof.Proof.LibGcnStats
import proofs.«159187_j41918880809282_2_alg».proof.Proof.LibRowBlocks
import Idealize.ShloMosaic.Lib.ValueLayout

/-!
The second region's output is the reference's pre-normalisation layer, entry by entry.

At row `p` and feature `q` the kernel holds  d_p · ( Σ_{e → p} h(s_e, q) · d(s_e)  +  h(p, q) · d_p ) + b_q,  the sum over
the edges e arriving at p with source row s_e, h the product of the features with the weights and d the inverse square
root of the degree; the reference holds  Σ_{e → p} h(s_e, q) · (d(s_e) · d(t_e))  +  h(p, q) · (1 / deg_p)  +  b_q  with
t_e the row its gather finds for the destination of e. For an arriving edge that row is p itself, d_p is a nonnegative
real so it distributes over the sum, and d_p · d_p = 1 / deg_p because the degree is one plus a count.
-/

set_option maxRecDepth 16384

noncomputable section

namespace Cert.KernelIdeal.YBridge

open Cert.KernelIdeal Cert.KernelIdeal.Gen Cert.KernelIdeal.Chain Cert.KernelIdeal.RegionValue
open Idealize.ShloMosaic Idealize.ShloMosaic.TcCoe Idealize.ShloMosaic.ValueIdx Idealize.SL.Sem
open Cert.RefRead Cert.GcnStats

variable (m : (ℓ : Loc nD τ sig) → Buf (Elt Ideal) ℓ) (ρ : Dev nD → PrngReg)

/-- The arguments on core `c`. -/
abbrev xA (c : Dev nD) : Cert.RefRead.A2 := m ((c : Thread nD τ).loc main_arg0)
abbrev eA (c : Dev nD) : Cert.RefRead.EI := m ((c : Thread nD τ).loc main_arg1)
abbrev wA (c : Dev nD) : Cert.RefRead.WW := m ((c : Thread nD τ).loc main_arg2)
abbrev bA (c : Dev nD) : Cert.RefRead.VV := m ((c : Thread nD τ).loc main_arg3)

/-- The column of inverse square roots of the degrees, at row `p`. -/
theorem dinv2_apply (c : Dev nD) (p : Fin 100000) :
    (V1 m ρ c main_v11 : S100000x1.Idx → EReal) (ix2 p (0 : Fin 1)) = dinv (eA m c) p := by
  rw [V1_dinv2]
  exact Cert.RowBlocks.shapeCast_col_apply _ _ p 0

/-- The first region's output: the product's rows scaled by that column. -/
theorem h2_apply (c : Dev nD) (p : Fin 100000) (q : Fin 128) :
    (W2 m ρ c (Proc.devRef .tc main_v12) : S100000x128.Idx → EReal) (ix2 p q) = hs (xA m c) (wA m c) p q * dinv (eA m c) p := by
  have h2 : (W2 m ρ c (Proc.devRef .tc main_v12) : S100000x128.Idx → EReal) = (dat0 (F := Ideal) (V1 m ρ) c).arrAt 3 cfg0.N := W2_arr m ρ c 3
  rw [h2, final0_apply (V1 m ρ) c p q, V1_arg0, V1_arg2]
  rw [scaledProductAt_def, dinv2_apply]
  rfl

/-- The second region's output at `(p, q)`, spelt over the arriving edges. -/
theorem yEntry_apply (c : Dev nD) (p : Fin 100000) (q : Fin 128) :
    yEntry (V3 m ρ) c p q
      = dinv (eA m c) p * ((0 + ∑ e ∈ arr (eA m c) p, hs (xA m c) (wA m c) (srcNode (eA m c) e) q * dinv (eA m c) (srcNode (eA m c) e))
          + hs (xA m c) (wA m c) p q * dinv (eA m c) p) + bA m c (ix1 q) := by
  unfold yEntry selfLoopEntry
  rw [V3_dinv2, dinv2_apply, V3_scat, scat_apply, V3_h2, h2_apply, V3_b2, shapeCast_a_1a_apply]
  refine congrArg (fun s => dinv (eA m c) p * ((0 + s) + hs (xA m c) (wA m c) p q * dinv (eA m c) p) + bA m c (ix1 q)) ?_
  exact Finset.sum_congr rfl fun e _ => h2_apply m ρ c (srcNode (eA m c) e) q

/-- It is the reference's layer at `(p, q)`. -/
theorem yEntry_eq_yR (c : Dev nD) (p : Fin 100000) (q : Fin 128) :
    yEntry (V3 m ρ) c p q = yR (xA m c) (eA m c) (wA m c) (bA m c) p q := by
  rw [yEntry_apply, y_apply]
  obtain ⟨h0, ht, -, -, hr⟩ := deg_facts (arr (eA m c) p) (deg (eA m c) p) (deg_eq (eA m c) p)
  rw [← dinv_eq] at h0 ht hr
  exact y_entry (arr (eA m c) p) (dinv (eA m c) p) (Ideal.div 1 (deg (eA m c) p)) h0 ht hr
    (fun e => hs (xA m c) (wA m c) (srcNode (eA m c) e) q) (fun e => dinv (eA m c) (srcNode (eA m c) e))
    (fun e => dinv (eA m c) (dstNode (eA m c) e)) (fun e he => by rw [dstNode_eq (eA m c) p e he])
    (hs (xA m c) (wA m c) p q) (bA m c (ix1 q))

/-- The second region's output array, at `(p, q)`. -/
theorem yArr_apply (c : Dev nD) (p : Fin 100000) (q : Fin 128) :
    (W4 m ρ c (Proc.devRef .tc main_v24_0) : S100000x128.Idx → EReal) (ix2 p q) = yR (xA m c) (eA m c) (wA m c) (bA m c) p q := by
  have h4 : (W4 m ρ c (Proc.devRef .tc main_v24_0) : S100000x128.Idx → EReal) = (dat1 (F := Ideal) (V3 m ρ) c).arrAt 4 cfg1.N := W4_arr m ρ c 4
  rw [h4, final1_y_apply (V3 m ρ) c p q, yEntry_eq_yR]

/-- The block sums: block `t`'s column sum of the layer. -/
theorem sum_apply (c : Dev nD) (t : Fin 20) (q : Fin 128) :
    (W4 m ρ c (Proc.devRef .tc main_v24_1) : S20x2x128.Idx → EReal) (ix3 t (0 : Fin 2) q)
      = 0 + ∑ r : Fin 5000, yR (xA m c) (eA m c) (wA m c) (bA m c) (rowOf t r) q := by
  have h4 : (W4 m ρ c (Proc.devRef .tc main_v24_1) : S20x2x128.Idx → EReal) = (dat1 (F := Ideal) (V3 m ρ) c).arrAt 5 cfg1.N := W4_arr m ρ c 5
  rw [h4, final1_sum_apply (V3 m ρ) c t q]
  exact congrArg (0 + ·) (Finset.sum_congr rfl fun r _ => yEntry_eq_yR m ρ c (rowOf t r) q)

/-- The block sums of squares. -/
theorem sq_apply (c : Dev nD) (t : Fin 20) (q : Fin 128) :
    (W4 m ρ c (Proc.devRef .tc main_v24_1) : S20x2x128.Idx → EReal) (ix3 t (1 : Fin 2) q)
      = 0 + ∑ r : Fin 5000, yR (xA m c) (eA m c) (wA m c) (bA m c) (rowOf t r) q * yR (xA m c) (eA m c) (wA m c) (bA m c) (rowOf t r) q := by
  have h4 : (W4 m ρ c (Proc.devRef .tc main_v24_1) : S20x2x128.Idx → EReal) = (dat1 (F := Ideal) (V3 m ρ) c).arrAt 5 cfg1.N := W4_arr m ρ c 5
  rw [h4, final1_sq_apply (V3 m ρ) c t q]
  exact congrArg (0 + ·) (Finset.sum_congr rfl fun r _ => by rw [yEntry_eq_yR])

end Cert.KernelIdeal.YBridge

end
-- ==== Proof.Region2.lean ====
import proofs.«159187_j41918880809282_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! # Region 2: the finalize step, entry by entry

The region's output array has, at row `p` and column `q`, the normalised, scaled and shifted entry
`(y − mean) · rsqrt (var + ε) · γ + β` clamped below at zero, plus the residual `x`, clamped below at zero again;
`y` and `x` are read at `(p, q)`, the four statistics at column `q` of their one row. -/

/-- The entry at row `p`, column `q`, as a function of the six arrays. -/
def finalizeAt (y x : S100000x128.Idx → EReal) (mean var gamma beta : S1x128.Idx → EReal) (p : Fin 100000) (q : Fin 128) : EReal :=
  max (max ((y (ix2 p q) - mean (ix2 (0 : Fin 1) q)) * Ideal.rsqrt (var (ix2 (0 : Fin 1) q) + Ideal.ofBits .f32 0x3727C5AC#32)
      * gamma (ix2 (0 : Fin 1) q) + beta (ix2 (0 : Fin 1) q)) 0 + x (ix2 p q)) 0

theorem finalizeAt_def (y x : S100000x128.Idx → EReal) (mean var gamma beta : S1x128.Idx → EReal) (p : Fin 100000) (q : Fin 128) :
    finalizeAt y x mean var gamma beta p q
      = max (max ((y (ix2 p q) - mean (ix2 (0 : Fin 1) q)) * Ideal.rsqrt (var (ix2 (0 : Fin 1) q) + Ideal.ofBits .f32 0x3727C5AC#32)
          * gamma (ix2 (0 : Fin 1) q) + beta (ix2 (0 : Fin 1) q)) 0 + x (ix2 p q)) 0 := rfl

/-- The whole output array, index by index, from the arrays the region finds. -/
def finalizeArr (c : Dev nD) : S100000x128.Idx → EReal := fun i =>
  finalizeAt (V c main_v24_0) (V c main_arg0) (V c main_v38) (V c main_v39) (V c main_v40) (V c main_v41) (i 0) (i 1)

/-! ## The body's result at an index of the block -/

/-- The reciprocal square root of a vector, read at an index. -/
theorem rsqrt_apply {s : Shape} {φ : FTy} (a : FVec Ideal s φ) (i : s.Idx) : rsqrt a i = Ideal.rsqrt (a i) := rfl

/-- The body's one stored value at row `r`, column `q` of the block: the pointwise operations read at the index, each
    one-row operand broadcast over the rows read at column `q` of its row. -/
theorem pay2_apply (x0 x1 : FVec Ideal S5000x128 .f32) (x2 x3 x4 x5 : FVec Ideal S1x128 .f32) (r : Fin 5000) (q : Fin 128) :
    k2_pay1 x0 x1 x2 x3 x4 x5 (ix2 r q)
      = max (max ((x0 (ix2 r q) - x2 (ix2 (0 : Fin 1) q)) * Ideal.rsqrt (x3 (ix2 (0 : Fin 1) q) + Ideal.ofBits .f32 0x3727C5AC#32)
          * x4 (ix2 (0 : Fin 1) q) + x5 (ix2 (0 : Fin 1) q)) 0 + x1 (ix2 r q)) 0 := by
  unfold k2_pay1
  simp only [shapeCast_self]
  simp only [maximumf_apply, addf_apply, mulf_apply, subf_apply, broadcast_apply, broadcastTo_1b_ab_apply, rsqrt_apply]
  rw [show (FloatOps.ofBits FTy.f32 0x00000000#32 : Ideal .f32) = 0 from Ideal.ofBits_zero_f32]
  rfl

/-! ## The index maps over the grid -/

/-- The printed index maps, decided over the 20 grid points: the two row-blocked inputs and the output sit at block
    `(t, 0)`, the four one-row statistics at block `(0, 0)`. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem hz2 : (![0, 0] : Fin 2 → Nat) = fun _ => 0 := funext fun a => by fin_cases a <;> rfl

/-! ## Each input block read where the output's rectangle says -/

/-- Row `r`, column `q` of point `t`'s block of a row-blocked window is row `t · 5000 + r`, column `q` of its array. -/
theorem blk2_0_apply (c : Dev nD) (t : Fin cfg2.N) (r : Fin 5000) (q : Fin 128) (p : Fin 100000)
    (hp : p.val = t.val * 5000 + r.val) : iblk2 V c 0 t (ix2 r q) = V c main_v24_0 (ix2 p q) := by
  obtain ⟨e0, e1, -⟩ := idx_facts2 t
  show V c main_v24_0 (((cfg2.win 0).blk t).view.emb (ix2 r q)) = _
  refine congrArg _ (funext fun a => Fin.ext ?_)
  match a with
  | ⟨0, _⟩ => show win2_0.index t (0 : Fin 2) * 5000 + 1 * r.val = p.val; omega
  | ⟨1, _⟩ => show win2_0.index t (1 : Fin 2) * 128 + 1 * q.val = q.val; omega

theorem blk2_1_apply (c : Dev nD) (t : Fin cfg2.N) (r : Fin 5000) (q : Fin 128) (p : Fin 100000)
    (hp : p.val = t.val * 5000 + r.val) : iblk2 V c 1 t (ix2 r q) = V c main_arg0 (ix2 p q) := by
  obtain ⟨-, -, e0, e1, -⟩ := idx_facts2 t
  show V c main_arg0 (((cfg2.win 1).blk t).view.emb (ix2 r q)) = _
  refine congrArg _ (funext fun a => Fin.ext ?_)
  match a with
  | ⟨0, _⟩ => show win2_1.index t (0 : Fin 2) * 5000 + 1 * r.val = p.val; omega
  | ⟨1, _⟩ => show win2_1.index t (1 : Fin 2) * 128 + 1 * q.val = q.val; omega

/-- The one block of a one-row window is its array. -/
theorem blk2_2_apply (c : Dev nD) (t : Fin cfg2.N) (q : Fin 128) :
    iblk2 V c 2 t (ix2 (0 : Fin 1) q) = V c main_v38 (ix2 (0 : Fin 1) q) := by
  obtain ⟨-, -, -, -, e0, e1, -⟩ := idx_facts2 t
  show V c main_v38 (((cfg2.win 2).blk t).view.emb (ix2 (0 : Fin 1) q)) = _
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

theorem blk2_3_apply (c : Dev nD) (t : Fin cfg2.N) (q : Fin 128) :
    iblk2 V c 3 t (ix2 (0 : Fin 1) q) = V c main_v39 (ix2 (0 : Fin 1) q) := by
  obtain ⟨-, -, -, -, -, -, e0, e1, -⟩ := idx_facts2 t
  show V c main_v39 (((cfg2.win 3).blk t).view.emb (ix2 (0 : Fin 1) q)) = _
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

theorem blk2_4_apply (c : Dev nD) (t : Fin cfg2.N) (q : Fin 128) :
    iblk2 V c 4 t (ix2 (0 : Fin 1) q) = V c main_v40 (ix2 (0 : Fin 1) q) := by
  obtain ⟨-, -, -, -, -, -, -, -, e0, e1, -⟩ := idx_facts2 t
  show V c main_v40 (((cfg2.win 4).blk t).view.emb (ix2 (0 : Fin 1) q)) = _
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

theorem blk2_5_apply (c : Dev nD) (t : Fin cfg2.N) (q : Fin 128) :
    iblk2 V c 5 t (ix2 (0 : Fin 1) q) = V c main_v41 (ix2 (0 : Fin 1) q) := by
  obtain ⟨-, -, -, -, -, -, -, -, -, -, e0, e1, -⟩ := idx_facts2 t
  show V c main_v41 (((cfg2.win 5).blk t).view.emb (ix2 (0 : Fin 1) q)) = _
  refine congrArg _ (funext fun a => Fin.ext ?_)
  match a with
  | ⟨0, _⟩ => show win2_5.index t (0 : Fin 2) * 1 + 1 * 0 = 0; omega
  | ⟨1, _⟩ => show win2_5.index t (1 : Fin 2) * 128 + 1 * q.val = q.val; omega

/-! ## What a point writes back -/

/-- The body's result at row `r`, column `q` of point `t`'s block is the whole-array function at the array index
    `(t · 5000 + r, q)`. -/
theorem flushed2_at (c : Dev nD) (t : Fin cfg2.N) (r : Fin 5000) (q : Fin 128) (i : S100000x128.Idx)
    (hi0 : (i 0).val = t.val * 5000 + r.val) (hi1 : (i 1).val = q.val) :
    k2_pay1 (iblk2 V c 0 t) (iblk2 V c 1 t) (iblk2 V c 2 t) (iblk2 V c 3 t) (iblk2 V c 4 t) (iblk2 V c 5 t) (ix2 r q)
      = finalizeArr V c i := by
  obtain ⟨p, q', rfl⟩ : ∃ (p : Fin 100000) (q' : Fin 128), i = ix2 p q' := ⟨i 0, i 1, eq_ix2 i⟩
  have hq : q' = q := Fin.ext hi1
  subst hq
  refine (pay2_apply (iblk2 V c 0 t) (iblk2 V c 1 t) (iblk2 V c 2 t) (iblk2 V c 3 t) (iblk2 V c 4 t) (iblk2 V c 5 t) r q').trans ?_
  rw [blk2_0_apply V c t r q' p hi0, blk2_1_apply V c t r q' p hi0, blk2_2_apply V c t q', blk2_3_apply V c t q',
    blk2_4_apply V c t q', blk2_5_apply V c t q']
  rfl

/-- Point `t` writes back block `t` of the whole-array function. -/
theorem flushed2_eq (c : Dev nD) (t : Fin cfg2.N) :
    (dat2 (F := Ideal) V c).flushed 6 t = ((cfg2.win 6).blk t).view.read (Elt Ideal) (finalizeArr V c) := by
  show (cfg2.win 6).cut (grid2.coords t) ((dat2 (F := Ideal) V c).after 6 t) = _
  rw [after2_6]
  unfold out2_6
  rw [View.canon_unit_zero hz2]
  simp only [View.ld_unit_zero (S := S5000x128) hz2, View.ld_unit_zero (S := S1x128) hz2]
  obtain ⟨-, -, -, -, -, -, -, -, -, -, -, -, e0, e1⟩ := idx_facts2 t
  funext j
  obtain ⟨r, q, rfl⟩ : ∃ (r : Fin 5000) (q : Fin 128), j = ix2 r q := ⟨j 0, j 1, eq_ix2 j⟩
  show k2_pay1 (iblk2 V c 0 t) (iblk2 V c 1 t) (iblk2 V c 2 t) (iblk2 V c 3 t) (iblk2 V c 4 t) (iblk2 V c 5 t) (ix2 r q)
    = finalizeArr V c (((cfg2.win 6).blk t).view.emb (ix2 r q))
  refine flushed2_at V c t r q _ ?_ ?_
  · show win2_6.index t (0 : Fin 2) * 5000 + 1 * r.val = t.val * 5000 + r.val; omega
  · show win2_6.index t (1 : Fin 2) * 128 + 1 * q.val = q.val; omega

/-! ## The blocks cover the array -/

/-- An index of the array is in point `t`'s block iff each coordinate is in the block's range on its axis. -/
theorem mem_blk2 (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v42).slice (win2_6.rect t)).set ↔ _
  rw [View.set_slice_whole, Rect.mem_set_unit]
  exact Iff.rfl

/-- Row `p` lies in the block of point `p / 5000`: the twenty blocks of 5000 rows tile the 100000 rows. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have ht : (i 0).val / 5000 < cfg2.N := by
    show (i 0).val / 5000 < grid2.N
    rw [N_2]; omega
  obtain ⟨-, -, -, -, -, -, -, -, -, -, -, -, e0, e1⟩ := idx_facts2 ⟨(i 0).val / 5000, ht⟩
  refine ⟨⟨(i 0).val / 5000, ht⟩, flush2_6 _, ?_⟩
  rw [mem_blk2]
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_6.index ⟨(i 0).val / 5000, ht⟩ (1 : Fin 2) * 128 ≤ (i 1).val
      ∧ (i 1).val < win2_6.index ⟨(i 0).val / 5000, ht⟩ (1 : Fin 2) * 128 + 128
    rw [e1]
    omega

/-! ## The array after the region -/

/-- The output array after the region is the whole-array function of the arrays the region finds. -/
theorem final2 (c : Dev nD) : (dat2 (F := Ideal) V c).arrAt 6 cfg2.N = finalizeArr V c :=
  (dat2 (F := Ideal) V c).arrAt_eq_of_cover 6 (finalizeArr V c) (fun t _ => flushed2_eq V c t) cover2

/-- Entry `(p, q)` of the output array after the region. -/
theorem final2_apply (c : Dev nD) (p : Fin 100000) (q : Fin 128) :
    (dat2 (F := Ideal) V c).arrAt 6 cfg2.N (ix2 p q)
      = finalizeAt (V c main_v24_0) (V c main_arg0) (V c main_v38) (V c main_v39) (V c main_v40) (V c main_v41) p q := by
  rw [final2]
  rfl

/-- The same entry, with the arrays the region finds given as functions into the extended reals. -/
theorem final2_apply_of (c : Dev nD) (p : Fin 100000) (q : Fin 128) (y x : S100000x128.Idx → EReal)
    (mean var gamma beta : S1x128.Idx → EReal) (hy : V c main_v24_0 = y) (hx : V c main_arg0 = x) (hmean : V c main_v38 = mean)
    (hvar : V c main_v39 = var) (hgamma : V c main_v40 = gamma) (hbeta : V c main_v41 = beta) :
    (dat2 (F := Ideal) V c).arrAt 6 cfg2.N (ix2 p q)
      = max (max ((y (ix2 p q) - mean (ix2 (0 : Fin 1) q)) * Ideal.rsqrt (var (ix2 (0 : Fin 1) q) + Ideal.ofBits .f32 0x3727C5AC#32)
          * gamma (ix2 (0 : Fin 1) q) + beta (ix2 (0 : Fin 1) q)) 0 + x (ix2 p q)) 0 := by
  subst hy hx hmean hvar hgamma hbeta
  exact final2_apply V c p q

end Cert.KernelIdeal.RegionValue

end
-- ==== Proof.KOut.lean ====
import proofs.«159187_j41918880809282_2_alg».proof.Proof.KChain
import proofs.«159187_j41918880809282_2_alg».proof.Proof.Region2
import Idealize.ShloMosaic.Lib.ValueLayout

/-!
The program's result at an entry.

The third region leaves in the result array, at row `p` and feature `q`, the batch-normalised, rectified entry of
the second region's output with the residual added and rectified again: its inputs are the second region's output
as left in its buffer, the features as launched, and the mean, the variance, the scale and the shift laid out as
rows, each read at feature `q`.
-/

set_option maxRecDepth 16384

noncomputable section

namespace Cert.KernelIdeal.Out

open Cert.KernelIdeal Cert.KernelIdeal.Gen Cert.KernelIdeal.Chain Cert.KernelIdeal.RegionValue
open Idealize.ShloMosaic Idealize.ShloMosaic.TcCoe Idealize.ShloMosaic.ValueIdx Idealize.SL.Sem

variable (m : (ℓ : Loc nD τ sig) → Buf (Elt Ideal) ℓ) (ρ : Dev nD → PrngReg)

/-- The second region's output as its buffer holds it afterwards. -/
abbrev yArr (c : Dev nD) : S100000x128.Idx → EReal := W4 m ρ c (Proc.devRef .tc main_v24_0)
/-- The result array at the end. -/
abbrev outArr (c : Dev nD) : S100000x128.Idx → EReal := W6 m ρ c (Proc.devRef .tc main_v42)
abbrev xArg (c : Dev nD) : S100000x128.Idx → EReal := m ((c : Thread nD τ).loc main_arg0)
abbrev gammaArg (c : Dev nD) : S128.Idx → EReal := m ((c : Thread nD τ).loc main_arg4)
abbrev betaArg (c : Dev nD) : S128.Idx → EReal := m ((c : Thread nD τ).loc main_arg5)

/-- The result at `(p, q)`. -/
theorem out_apply (c : Dev nD) (p : Fin 100000) (q : Fin 128) :
    outArr m ρ c (ix2 p q)
      = max (max ((yArr m ρ c (ix2 p q) - meanVec m ρ c (ix1 q))
            * Ideal.rsqrt (varVec m ρ c (ix1 q) + Ideal.ofBits .f32 0x3727C5AC#32) * gammaArg m c (ix1 q) + betaArg m c (ix1 q)) 0
          + xArg m c (ix2 p q)) 0 := by
  have h6 : outArr m ρ c = (dat2 (F := Ideal) (V5 m ρ) c).arrAt 6 cfg2.N := W6_arr m ρ c 6
  rw [h6, final2_apply (V5 m ρ) c p q, V5_y, V5_arg0, V5_mean2, V5_var2, V5_gamma2, V5_beta2, finalizeAt_def,
    shapeCast_a_1a_apply, shapeCast_a_1a_apply, shapeCast_a_1a_apply, shapeCast_a_1a_apply]

end Cert.KernelIdeal.Out

end
-- ==== Proof.KStats.lean ====
import proofs.«159187_j41918880809282_2_alg».proof.Proof.KChain
import Idealize.ShloMosaic.Lib.Pipeline.Value
import Idealize.ShloMosaic.Lib.ValueIdx
import Idealize.ShloMosaic.PureOps.Ideal.Laws

/-!
The batch statistics the third region reads, at an index.

The second region leaves, for each of the twenty row blocks t, the block's column sums (row 0) and its column sums
of squares (row 1). The host adds the twenty blocks (the per-feature totals), divides each row of the totals by the
row count, and forms mean = total₀ / n and variance = max (total₁ / n − mean · mean) 0. Here each of these is read
at a feature q as an expression in the extended reals over the entries of the per-block array.
-/

set_option maxRecDepth 16384

noncomputable section

namespace Cert.KernelIdeal.Stats

open Cert.KernelIdeal Cert.KernelIdeal.Gen Cert.KernelIdeal.Chain
open Idealize.ShloMosaic Idealize.ShloMosaic.TcCoe Idealize.ShloMosaic.ValueIdx Idealize.SL.Sem

open scoped BigOperators

/-! ## One operation at a time, over any array of per-block rows -/

/-- The sum over the blocks, at row j and feature q: zero plus the twenty blocks' entries at (j, q). -/
theorem sumBlocks_apply (x : FVec Ideal S20x2x128 .f32) (j : Fin 2) (q : Fin 128) :
    Host.reduceAdd x (constant (F := Ideal) S_ .f32 0x00000000#32) reducesTo_S20x2x128_S2x128_d0 h_S_ (ix2 j q)
      = 0 + ∑ t : Fin 20, x (ix3 t j q) := by
  simp only [Host.reduceAdd, Ideal.hostReduceAdd_def]
  rw [Ideal.hostReduceAdd_single reducesTo_S20x2x128_S2x128_d0 (by decide)]
  refine congrArg₂ (· + ·) ?_ (Finset.sum_congr rfl fun k _ => ?_)
  · exact Ideal.ofBits_zero_f32
  · exact congrArg x (funext fun a => Fin.ext (by match a with | ⟨0, _⟩ => rfl | ⟨1, _⟩ => rfl | ⟨2, _⟩ => rfl))

/-- Row j of a two-row array, as a vector, at feature q: the array's entry (j, q). -/
theorem row_apply (y : FVec Ideal S2x128 .f32) (j : Fin 2) (off : Fin 2 → Nat) (hoff0 : off 0 = j.val) (hoff1 : off 1 = 0)
    (hs : S2x128.Slices off S1x128) (q : Fin 128) :
    shapeCast S128 (extractStridedSlice S1x128 off y hs) shapeCasts_S1x128_S128 (ix1 q) = y (ix2 j q) := by
  rw [shapeCast_apply (extractStridedSlice S1x128 off y hs) shapeCasts_S1x128_S128 (ix1 q) (ix2 (0 : Fin 1) q)
    (by rewrite [Shape.rowMajor_val_two, Shape.rowMajor_val_one]; show 0 * 128 + q.val = q.val; omega)]
  exact extractStridedSlice_apply off y hs (ix2 (0 : Fin 1) q) (ix2 j q) (fun a => match a with
    | ⟨0, _⟩ => by show j.val = off 0 + 0; omega
    | ⟨1, _⟩ => by show q.val = off 1 + q.val; omega)

/-- A scalar constant broadcast to a vector, at any index: the constant. -/
theorem scalar_apply (w : BitVec 32) (i : S128.Idx) :
    broadcastInDim S128 ![] bcast_S_S128 (constant (F := Ideal) S_ .f32 w) i = Ideal.ofBits .f32 w := rfl

/-- A row of a two-row array over the row count n (the word 0x47C35000), at feature q. -/
theorem rowOverCount_apply (y : FVec Ideal S2x128 .f32) (j : Fin 2) (off : Fin 2 → Nat) (hoff0 : off 0 = j.val)
    (hoff1 : off 1 = 0) (hs : S2x128.Slices off S1x128) (q : Fin 128) :
    Host.divf (shapeCast S128 (extractStridedSlice S1x128 off y hs) shapeCasts_S1x128_S128)
        (broadcastInDim S128 ![] bcast_S_S128 (constant (F := Ideal) S_ .f32 0x47C35000#32)) (ix1 q)
      = Ideal.div (y (ix2 j q)) (Ideal.ofBits .f32 0x47C35000#32) := by
  show Ideal.div (shapeCast S128 (extractStridedSlice S1x128 off y hs) shapeCasts_S1x128_S128 (ix1 q))
      (Ideal.ofBits .f32 0x47C35000#32) = _
  rw [row_apply y j off hoff0 hoff1 hs q]

/-! ## The statistics of the program's per-block array -/

variable (m : (ℓ : Loc nD τ sig) → Buf (Elt Ideal) ℓ) (ρ : Dev nD → PrngReg)

/-- The per-block array when the second region has finished: entry (t, 0, q) is block t's sum of column q, entry
    (t, 1, q) its sum of squares. -/
abbrev part (c : Dev nD) : FVec Ideal S20x2x128 .f32 := W4 m ρ c (Proc.devRef .tc main_v24_1)

/-- The totals at row j and feature q: the sum over the twenty blocks. -/
theorem totals_apply (c : Dev nD) (j : Fin 2) (q : Fin 128) :
    totals m ρ c (ix2 j q) = 0 + ∑ t : Fin 20, part m ρ c (ix3 t j q) := by
  unfold totals
  exact sumBlocks_apply (part m ρ c) j q

/-- The mean at feature q: the total of the sums over the row count. -/
theorem meanVec_apply (c : Dev nD) (q : Fin 128) :
    meanVec m ρ c (ix1 q)
      = Ideal.div (0 + ∑ t : Fin 20, part m ρ c (ix3 t (0 : Fin 2) q)) (Ideal.ofBits .f32 0x47C35000#32) := by
  unfold meanVec
  rw [rowOverCount_apply (totals m ρ c) 0 ![0, 0] rfl rfl slices_S2x128_S1x128_0_0 q, totals_apply]

/-- The variance at feature q: the total of the squares over the row count, less the square of the mean, and not
    below zero. -/
theorem varVec_apply (c : Dev nD) (q : Fin 128) :
    varVec m ρ c (ix1 q)
      = max (Ideal.div (0 + ∑ t : Fin 20, part m ρ c (ix3 t (1 : Fin 2) q)) (Ideal.ofBits .f32 0x47C35000#32)
          - meanVec m ρ c (ix1 q) * meanVec m ρ c (ix1 q)) 0 := by
  unfold varVec
  show max (Host.divf (shapeCast S128 (extractStridedSlice S1x128 ![1, 0] (totals m ρ c) slices_S2x128_S1x128_1_0) shapeCasts_S1x128_S128)
        (broadcastInDim S128 ![] bcast_S_S128 (constant (F := Ideal) S_ .f32 0x47C35000#32)) (ix1 q)
      - meanVec m ρ c (ix1 q) * meanVec m ρ c (ix1 q)) (Ideal.ofBits .f32 0x00000000#32) = _
  rw [rowOverCount_apply (totals m ρ c) 1 ![1, 0] rfl rfl slices_S2x128_S1x128_1_0 q, totals_apply,
    Ideal.ofBits_zero_f32]

end Cert.KernelIdeal.Stats

end
-- ==== Proof.FiniteInputs.lean ====
import proofs.«159187_j41918880809282_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

/-!
  The precondition "every float argument is finite", read back.

  The predicate is the conjunction, over the five float arguments, of "all entries x satisfy |x| < +∞",
  each "all" being a reduction by `and` of the array of one-bit comparison results down to a single bit.
  On the extended reals |x| = max x (-x), and max x (-x) < ⊤ excludes exactly x = ⊤ and x = ⊥, so an
  entry that passes the test is (the coercion of) a real number.
-/

noncomputable section

namespace Cert.FiniteInputs

open Idealize.ShloMosaic Idealize.ShloMosaic.ValueIdx
open Cert.Pre_finite_inputs

/-- The result of a reduction over all axes has exactly one index. -/
instance subsingleton_scalarIdx : Subsingleton S_.Idx := ⟨fun a b => funext fun d => d.elim0⟩

/-- The f32 pattern with all exponent bits set and no fraction bit denotes +∞. -/
theorem inf_word : Ideal.ofBits .f32 0x7F800000#32 = (⊤ : EReal) := by
  simp [Ideal.ofBits, Ideal.ieee]

/-- One entry: if |x| < +∞ holds as a one-bit comparison result, x is a real number. -/
theorem real_of_abs_lt_inf (x : EReal)
    (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- One argument: if the `and` over all entries of the comparison |x| < +∞ is 1, every entry of x is real.
    A reduction by `and` down to one bit whose result is 1 had a 1 at every index, so the comparison holds at
    each entry. -/
theorem all_real {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
          (cmpf .olt (Host.absf x) (broadcastInDim S ![] hb (constant (F := Ideal) S_ .f32 0x7F800000#32)))
          (constantI S_ 1 1#1) hr hu ix0 = 1#1)
    (i : S.Idx) : ∃ r : ℝ, x i = (r : EReal) :=
  real_of_abs_lt_inf (x i) (Host.reduce_andi_all _ _ hr hu ix0 e i)

/-- A conjunction of two one-bit scalars that is 1 has both conjuncts 1. -/
theorem and_one (a b : IVec S_ 1) (h : andi a b ix0 = 1#1) : a ix0 = 1#1 ∧ b ix0 = 1#1 := by
  have h' : IntOp.andi (a ix0) (b ix0) = 1#1 := h
  exact IntOp.andi_eq_one.1 h'

/-- The precondition decoded: if the predicate is all ones, every entry of each float argument is a real number.
    (The integer argument is not constrained by the predicate and plays no part.) -/
theorem reals_of_pre (x0 : FVec Ideal Cert.Pre_finite_inputs.S100000x128 .f32) (x1 : IVec Cert.Pre_finite_inputs.S2x600000 32)
    (x2 : FVec Ideal Cert.Pre_finite_inputs.S128x128 .f32) (x3 x4 x5 : FVec Ideal Cert.Pre_finite_inputs.S128 .f32)
    (h : Cert.Pre_finite_inputs.fn (F := Ideal) x0 x1 x2 x3 x4 x5 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) := by
  -- the predicate's one bit, with the chain of operations in view
  have e := congrFun h ix0
  dsimp only [Cert.Pre_finite_inputs.fn, Cert.Pre_finite_inputs.fn_part1] at e
  -- the conjunction is nested to the left: (((all x0 ∧ all x2) ∧ all x3) ∧ all x4) ∧ all x5
  obtain ⟨e, e5⟩ := and_one _ _ e
  obtain ⟨e, e4⟩ := and_one _ _ e
  obtain ⟨e, e3⟩ := and_one _ _ e
  obtain ⟨e0, e2⟩ := and_one _ _ e
  exact ⟨all_real x0 _ _ _ e0, all_real x2 _ _ _ e2, all_real x3 _ _ _ e3, all_real x4 _ _ _ e4,
    all_real x5 _ _ _ e5⟩

end Cert.FiniteInputs

end
-- ==== Proof.KValue.lean ====
import proofs.«159187_j41918880809282_2_alg».proof.Proof.KY
import proofs.«159187_j41918880809282_2_alg».proof.Proof.KOut
import proofs.«159187_j41918880809282_2_alg».proof.Proof.KStats
import proofs.«159187_j41918880809282_2_alg».proof.Proof.FiniteInputs
import proofs.«159187_j41918880809282_2_alg».proof.Defs

/-!
The program's result is the reference's.

With the layer's entries equal on both sides, the two batch means are one sum taken in two groupings: twenty block sums
of five thousand rows each against one sum over all hundred thousand rows. The variances differ in form — the kernel
takes the mean of the squares less the square of the mean, kept from going below zero; the reference the mean of the
squared deviations — and agree because every entry of the layer is a real number when the inputs are finite: over the
reals Σ (y − μ)² = Σ y² − N μ² for μ = (Σ y) / N, which is not negative. The normalisation, the two rectifications and
the residual are then the same expression of the same numbers.
-/

set_option maxRecDepth 16384

noncomputable section

namespace Cert.KernelIdeal.Result

open Cert.KernelIdeal Cert.KernelIdeal.Gen Cert.KernelIdeal.Chain Cert.KernelIdeal.RegionValue
open Cert.KernelIdeal.YBridge Cert.KernelIdeal.Out Cert.KernelIdeal.Stats
open Idealize.ShloMosaic Idealize.ShloMosaic.TcCoe Idealize.ShloMosaic.ValueIdx Idealize.SL.Sem
open Cert.RefRead Cert.GcnStats

/-- Every entry of the reference's layer is a real number when the features, the weights and the bias are. -/
theorem yR_real (x0 : A2) (E : EI) (x2 : WW) (x3 : VV) (hx : ∀ i, IsReal (x0 i)) (hw : ∀ i, IsReal (x2 i)) (hb : ∀ i, IsReal (x3 i))
    (p : Fin 100000) (q : Fin 128) : IsReal (yR x0 E x2 x3 p q) := by
  rw [y_apply]
  have hd : ∀ p', IsReal (dinv E p') := fun p' => by
    rw [dinv_eq]; exact (deg_facts (arr E p') (deg E p') (deg_eq E p')).2.2.1
  have hdiv : IsReal (Ideal.div 1 (deg E p)) := (deg_facts (arr E p) (deg E p) (deg_eq E p)).2.2.2.1
  have hh : ∀ p' q', IsReal (hs x0 x2 p' q') := fun p' q' => isReal_sum _ _ fun k _ => (hx _).mul (hw _)
  exact ((isReal_zero.add (isReal_sum _ _ fun e _ => (hh _ _).mul ((hd _).mul (hd _)))).add ((hh p q).mul hdiv)).add (hb _)

variable (m : (ℓ : Loc nD τ sig) → Buf (Elt Ideal) ℓ) (ρ : Dev nD → PrngReg)

/-- The two means agree. -/
theorem mean_eq (c : Dev nD) (q : Fin 128) :
    meanVec m ρ c (ix1 q) = meanR (xA m c) (eA m c) (wA m c) (bA m c) q := by
  rw [meanVec_apply, mean_apply]
  have hsum : ∀ t : Fin 20, part m ρ c (ix3 t (0 : Fin 2) q)
      = 0 + ∑ r : Fin 5000, yR (xA m c) (eA m c) (wA m c) (bA m c) (rowOf t r) q := fun t => sum_apply m ρ c t q
  simp only [hsum]
  exact mean_blocks (A := 20) (B := 5000) (N := 100000) rfl rowOf rowOf_val
    (fun p => yR (xA m c) (eA m c) (wA m c) (bA m c) p q) _

/-- The two variances agree when the layer's entries are real. -/
theorem var_eq (c : Dev nD) (q : Fin 128) (hreal : ∀ p, IsReal (yR (xA m c) (eA m c) (wA m c) (bA m c) p q)) :
    varVec m ρ c (ix1 q) = varR (xA m c) (eA m c) (wA m c) (bA m c) q := by
  rw [varVec_apply, var_apply, mean_eq]
  have hsq : ∀ t : Fin 20, part m ρ c (ix3 t (1 : Fin 2) q)
      = 0 + ∑ r : Fin 5000, yR (xA m c) (eA m c) (wA m c) (bA m c) (rowOf t r) q * yR (xA m c) (eA m c) (wA m c) (bA m c) (rowOf t r) q :=
    fun t => sq_apply m ρ c t q
  simp only [hsq]
  exact var_onepass (A := 20) (B := 5000) (N := 100000) rfl (by decide) rowOf rowOf_val
    (fun p => yR (xA m c) (eA m c) (wA m c) (bA m c) p q) hreal (Ideal.ofBits .f32 0x47C35000#32)
    (by rw [ofBits_1e5]; norm_num) (meanR (xA m c) (eA m c) (wA m c) (bA m c) q) (mean_apply _ _ _ _ q)

/-- THE RESULT: under the precondition the program's result array is the reference's last stage of the same arguments. -/
theorem kernel_value (hpre : Cert.Pre_KernelIdeal m) (c : Dev nD) :
    W6 m ρ c (Proc.devRef .tc main_v42)
      = Cert.ReferenceIdeal.Read.val_main_v76 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  obtain ⟨hx, hw, hb, -, -⟩ := Cert.FiniteInputs.reals_of_pre _ _ _ _ _ _ (hpre c)
  show outArr m ρ c = _
  funext i
  obtain ⟨p, q, rfl⟩ : ∃ (p : Fin 100000) (q : Fin 128), i = ix2 p q := ⟨i 0, i 1, eq_ix2 i⟩
  have hy : yArr m ρ c (ix2 p q) = yR (xA m c) (eA m c) (wA m c) (bA m c) p q := yArr_apply m ρ c p q
  rw [Cert.KernelIdeal.Out.out_apply, hy, mean_eq, var_eq m ρ c q (fun p' => yR_real _ _ _ _ hx hw hb p' q)]
  exact (Cert.RefRead.out_apply (xA m c) (eA m c) (wA m c) (bA m c) _ _ p q).symm

end Cert.KernelIdeal.Result

end
-- ==== Proof.lean ====
import proofs.«159187_j41918880809282_2_alg».proof.Defs
import proofs.«159187_j41918880809282_2_alg».proof.Proof.Gen.Kernel
import proofs.«159187_j41918880809282_2_alg».proof.Proof.Gen.Kernel.Skeleton
import proofs.«159187_j41918880809282_2_alg».proof.Proof.Gen.Kernel.Launch
import proofs.«159187_j41918880809282_2_alg».proof.Proof.Gen.Kernel.Points
import proofs.«159187_j41918880809282_2_alg».proof.Proof.Gen.Kernel.Frame
import proofs.«159187_j41918880809282_2_alg».proof.Proof.Gen.KernelIdeal
import proofs.«159187_j41918880809282_2_alg».proof.Proof.Gen.KernelIdeal.Skeleton
import proofs.«159187_j41918880809282_2_alg».proof.Proof.Gen.KernelIdeal.Launch
import proofs.«159187_j41918880809282_2_alg».proof.Proof.Gen.KernelIdeal.Points
import proofs.«159187_j41918880809282_2_alg».proof.Proof.Gen.KernelIdeal.Frame
import proofs.«159187_j41918880809282_2_alg».proof.Proof.Gen.ReferenceIdeal
import proofs.«159187_j41918880809282_2_alg».proof.Proof.Gen.ReferenceIdeal.Run
import proofs.«159187_j41918880809282_2_alg».proof.Proof.Gen.ReferenceIdeal.Read
import proofs.«159187_j41918880809282_2_alg».proof.Proof.Gen.Pre_finite_inputs
import proofs.«159187_j41918880809282_2_alg».proof.Proof.KRun
import proofs.«159187_j41918880809282_2_alg».proof.Proof.KValue
import Idealize.ShloMosaic.Adequacy
import Idealize.ShloMosaic.Init

/-!
A residual graph-convolution block — a dense product, a degree-normalised aggregation over the edges with self-loops,
a bias, batch normalisation with batch statistics, a rectification, the residual and a second rectification — computed
by three tiled kernels with host operations between them, against its plain array formulation.

Both idealized programs end with the same extended reals in their result arrays. The kernel's dense product with the
rows scaled by d = deg^(-1/2) is gathered and summed per destination and scaled by d again, which is the reference's
sum of rows weighted by d(source)·d(destination), because d is a nonnegative real and is constant over the edges that
arrive at one node; its self-loop term h·d·d is the reference's h·(1/deg). The batch mean is one sum in two groupings.
The variance is taken in one pass by the kernel and in two by the reference; the two agree over the reals, and the
layer's entries are real because the precondition makes every float input finite. The rest is one expression on both
sides. The three frames are the generated ones, and the idealization rewrote nothing.
-/

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the reference's last stage of the (agreeing) arguments in their result arrays. -/
theorem algebraic : Cert.algebraic_KernelIdeal_ReferenceIdeal := by
  intro m ρ m' ρ' hpre hagree
  refine ⟨fun c => Cert.ReferenceIdeal.Read.val_main_v76 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)), ?_, ?_⟩
  · exact (θ_run Cert.KernelIdeal.defs _ _).mono
      (fun r h c => ⟨((h c).1).trans (Cert.KernelIdeal.Result.kernel_value m ρ hpre c), (h c).2⟩)
      (Cert.KernelIdeal.KRun.run_main m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v76_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
